-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S256 .f32) (main_arg10 : FVec F S256x128 .f32) (main_arg11 : FVec F S1x256 .f32) (main_arg12 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S1x256 .f32 := Host.absf main_arg11
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x128 .f32) (main_arg8 : FVec F S256x128 .f32) (main_arg9 : FVec F S256 .f32) (main_arg10 : FVec F S256x128 .f32) (main_arg11 : FVec F S1x256 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S256x128 .f32) (main_arg9 : FVec F S256 .f32) (main_arg10 : FVec F S256x128 .f32) (main_arg11 : FVec F S1x256 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S1x256 : Shape := ⟨2, ![1, 256]⟩
abbrev S1 : Shape := ⟨1, ![1]⟩
abbrev S1x1600000 : Shape := ⟨2, ![1, 1600000]⟩
abbrev S1600000 : Shape := ⟨1, ![1600000]⟩
abbrev S1x128 : Shape := ⟨2, ![1, 128]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S5000 : Shape := ⟨1, ![5000]⟩
abbrev S5000x1 : Shape := ⟨2, ![5000, 1]⟩
abbrev S50000x256 : Shape := ⟨2, ![50000, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S512x256 : Shape := ⟨2, ![512, 256]⟩
abbrev S512 : Shape := ⟨1, ![512]⟩
abbrev S512x1 : Shape := ⟨2, ![512, 1]⟩
abbrev S1x1 : Shape := ⟨2, ![1, 1]⟩

abbrev nBuf : Space → Nat
  | .hbm => 91
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S256, .f32⟩
  | .hbm, ⟨10, _⟩ => ⟨S256x128, .f32⟩
  | .hbm, ⟨11, _⟩ => ⟨S1x256, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S1x128, .f32⟩
  | .hbm, ⟨18, _⟩ => ⟨S50000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S50000x128, .f32⟩
  | .hbm, ⟨30, _⟩ => ⟨S1600000x1, .i32⟩
  | .hbm, ⟨31, _⟩ => ⟨S50000x128, .f32⟩
  | .hbm, ⟨32, _⟩ => ⟨S_, .f32⟩
  | .hbm, ⟨33, _⟩ => ⟨S1600000, .f32⟩
  | .hbm, ⟨34, _⟩ => ⟨S_, .f32⟩
  | .hbm, ⟨35, _⟩ => ⟨S50000, .f32⟩
  | .hbm, ⟨36, _⟩ => ⟨S1600000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S50000x128, .f32⟩
  | .hbm, ⟨57, _⟩ => ⟨S1600000x1, .i32⟩
  | .hbm, ⟨58, _⟩ => ⟨S50000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S50000, .f32⟩
  | .hbm, ⟨63, _⟩ => ⟨S1600000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S1x256, .f32⟩
  | .hbm, ⟨72, _⟩ => ⟨S50000x256, .f32⟩
  | .hbm, ⟨73, _⟩ => ⟨S_, .f32⟩
  | .hbm, ⟨74, _⟩ => ⟨S512x256, .f32⟩
  | .hbm, ⟨75, _⟩ => ⟨S50000x1, .i32⟩
  | .hbm, ⟨76, _⟩ => ⟨S512x256, .f32⟩
  | .hbm, ⟨77, _⟩ => ⟨S_, .f32⟩
  | .hbm, ⟨78, _⟩ => ⟨S50000, .f32⟩
  | .hbm, ⟨79, _⟩ => ⟨S_, .f32⟩
  | .hbm, ⟨80, _⟩ => ⟨S512, .f32⟩
  | .hbm, ⟨81, _⟩ => ⟨S50000x1, .i32⟩
  | .hbm, ⟨82, _⟩ => ⟨S512, .f32⟩
  | .hbm, ⟨83, _⟩ => ⟨S_, .f32⟩
  | .hbm, ⟨84, _⟩ => ⟨S512, .f32⟩
  | .hbm, ⟨85, _⟩ => ⟨S512, .f32⟩
  | .hbm, ⟨86, _⟩ => ⟨S512x1, .f32⟩
  | .hbm, ⟨87, _⟩ => ⟨S512x256, .f32⟩
  | .hbm, ⟨88, _⟩ => ⟨S512x256, .f32⟩
  | .hbm, ⟨89, _⟩ => ⟨S1x1, .f32⟩
  | .hbm, ⟨90, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S256x128, .f32⟩
  | .local _ .vmem, ⟨20, _⟩ => ⟨S1x256, .f32⟩
  | .local _ .vmem, ⟨21, _⟩ => ⟨S256x128, .f32⟩
  | .local _ .vmem, ⟨22, _⟩ => ⟨S2000x256, .f32⟩
  | .local _ .vmem, ⟨23, _⟩ => ⟨S2000x256, .f32⟩
  | .local _ .vmem, ⟨24, _⟩ => ⟨S512x256, .f32⟩
  | .local _ .vmem, ⟨25, _⟩ => ⟨S1x256, .f32⟩
  | .local _ .vmem, ⟨26, _⟩ => ⟨S1x1, .f32⟩
  | .local _ .vmem, ⟨27, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_13 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem1_0 : DmaSem sig := 25
abbrev cc3_sem2_0 : DmaSem sig := 26
abbrev cc3_sem3_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  shapeCasts_S1_S1x1 : S1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S1x256_S512x256 : S1x256.Broadcasts S512x256
  reduces_S512x256_S512 : S512x256.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S5000x128_S128x128_S5000x128_1_1_0_0_n_n_wf : DotDims.WF S5000x128 S128x128 S5000x128 [1] [1] [0] [0] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S2000x128_S256x128_S2000x256_1_1_0_0_n_n_wf : DotDims.WF S2000x128 S256x128 S2000x256 [1] [1] [0] [0] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S512x256.size a
  hwx3_0 : ∀ i : grid3.Coords, EltTy.bits .f32 = 32 ∨ (Rect.block (s := S512x256) S512x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x1.size a ≤ S512x1.size a
  hwx3_3 : ∀ i : grid3.Coords, EltTy.bits .f32 = 32 ∨ (Rect.block (s := S512x1) S512x1.size (cc3_transform_3 i) (hinb3_3 i)).WholeWords (EltTy.packing .f32)

variable [Facts₀]

def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S512x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S512x1.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S1x256 : Shape := ⟨2, ![1, 256]⟩
abbrev S1 : Shape := ⟨1, ![1]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S128x256 : Shape := ⟨2, ![128, 256]⟩
abbrev S50000x256 : Shape := ⟨2, ![50000, 256]⟩
abbrev S512x256 : Shape := ⟨2, ![512, 256]⟩
abbrev S512 : Shape := ⟨1, ![512]⟩
abbrev S512x1 : Shape := ⟨2, ![512, 1]⟩
abbrev S256x1 : Shape := ⟨2, ![256, 1]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S256x128, .f32⟩
  | 9 => ⟨S256, .f32⟩
  | 10 => ⟨S256x128, .f32⟩
  | 11 => ⟨S1x256, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S128x128, .f32⟩
  | 18 => ⟨S50000x128, .f32⟩
  | 19 => ⟨S1x128, .f32⟩
  | 20 => ⟨S50000x128, .f32⟩
  | 21 => ⟨S50000x128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S50000x128, .f32⟩
  | 33 => ⟨S1600000x1, .i32⟩
  | 34 => ⟨S50000x128, .f32⟩
  | 35 => ⟨S_, .f32⟩
  | 36 => ⟨S1600000, .f32⟩
  | 37 => ⟨S_, .f32⟩
  | 38 => ⟨S50000, .f32⟩
  | 39 => ⟨S1600000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S128x128, .f32⟩
  | 48 => ⟨S50000x128, .f32⟩
  | 49 => ⟨S1x128, .f32⟩
  | 50 => ⟨S50000x128, .f32⟩
  | 51 => ⟨S50000x128, .f32⟩
  | 52 => ⟨S128x128, .f32⟩
  | 53 => ⟨S50000x128, .f32⟩
  | 54 => ⟨S50000x128, .f32⟩
  | 55 => ⟨S50000x128, .f32⟩
  | 56 => ⟨S_, .f32⟩
  | 57 => ⟨S50000, .f32⟩
  | 58 => ⟨S50000x1, .f32⟩
  | 59 => ⟨S50000x1, .f32⟩
  | 60 => ⟨S_, .f32⟩
  | 61 => ⟨S50000x1, .f32⟩
  | 62 => ⟨S50000x1, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S_, .f32⟩
  | 78 => ⟨S50000x128, .f32⟩
  | 79 => ⟨S1600000x1, .i32⟩
  | 80 => ⟨S50000x128, .f32⟩
  | 81 => ⟨S_, .f32⟩
  | 82 => ⟨S1600000, .f32⟩
  | 83 => ⟨S_, .f32⟩
  | 84 => ⟨S50000, .f32⟩
  | 85 => ⟨S1600000x1, .i32⟩
  | 86 => ⟨S50000, .f32⟩
  | 87 => ⟨S_, .f32⟩
  | 88 => ⟨S50000, .f32⟩
  | 89 => ⟨S50000, .f32⟩
  | 90 => ⟨S50000x1, .f32⟩
  | 91 => ⟨S50000x128, .f32⟩
  | 92 => ⟨S50000x128, .f32⟩
  | 93 => ⟨S128x256, .f32⟩
  | 94 => ⟨S50000x256, .f32⟩
  | 95 => ⟨S1x256, .f32⟩
  | 96 => ⟨S50000x256, .f32⟩
  | 97 => ⟨S50000x256, .f32⟩
  | 98 => ⟨S128x256, .f32⟩
  | 99 => ⟨S50000x256, .f32⟩
  | 100 => ⟨S50000x256, .f32⟩
  | 101 => ⟨S50000x256, .f32⟩
  | 102 => ⟨S_, .f32⟩
  | 103 => ⟨S50000, .f32⟩
  | 104 => ⟨S50000x1, .f32⟩
  | 105 => ⟨S50000x1, .f32⟩
  | 106 => ⟨S_, .f32⟩
  | 107 => ⟨S50000x1, .f32⟩
  | 108 => ⟨S50000x1, .f32⟩
  | 109 => ⟨S50000x256, .f32⟩
  | 110 => ⟨S50000x256, .f32⟩
  | 111 => ⟨S_, .f32⟩
  | 112 => ⟨S512x256, .f32⟩
  | 113 => ⟨S50000x1, .i32⟩
  | 114 => ⟨S512x256, .f32⟩
  | 115 => ⟨S_, .f32⟩
  | 116 => ⟨S50000, .f32⟩
  | 117 => ⟨S_, .f32⟩
  | 118 => ⟨S512, .f32⟩
  | 119 => ⟨S50000x1, .i32⟩
  | 120 => ⟨S512, .f32⟩
  | 121 => ⟨S_, .f32⟩
  | 122 => ⟨S512, .f32⟩
  | 123 => ⟨S512, .f32⟩
  | 124 => ⟨S512x1, .f32⟩
  | 125 => ⟨S512x256, .f32⟩
  | 126 => ⟨S512x256, .f32⟩
  | 127 => ⟨S256x1, .f32⟩
  | _ => ⟨S50000x128, .f32⟩

abbrev hbmTy0_1 (i : Nat) : BufTy := match i % 128 with
  | 0 => ⟨S512x1, .f32⟩
  | 1 => ⟨S1x1, .f32⟩
  | 2 => ⟨S512x1, .f32⟩
  | 3 => ⟨S512x1, .f32⟩
  | 4 => ⟨S512x1, .f32⟩
  | 5 => ⟨S512x1, .f32⟩
  | 6 => ⟨S_, .f32⟩
  | 7 => ⟨S512x1, .f32⟩
  | 8 => ⟨S512x1, .f32⟩
  | 9 => ⟨S_, .f32⟩
  | 10 => ⟨S512x1, .f32⟩
  | 11 => ⟨S512x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_v0 : Ref sig .tc := ⟨.hbm, 55, rfl⟩
abbrev main_call0_cst : Ref sig .tc := ⟨.hbm, 56, rfl⟩
abbrev main_call0_v1 : Ref sig .tc := ⟨.hbm, 57, rfl⟩
abbrev main_call0_v2 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_cst : Ref sig .tc := ⟨.hbm, 65, rfl⟩
abbrev main_call1_v0 : Ref sig .tc := ⟨.hbm, 66, rfl⟩
abbrev main_v41 : Ref sig .tc := ⟨.hbm, 67, rfl⟩
abbrev main_c_5 : Ref sig .tc := ⟨.hbm, 68, rfl⟩
abbrev main_v42 : Ref sig .tc := ⟨.hbm, 69, rfl⟩
abbrev main_v43 : Ref sig .tc := ⟨.hbm, 70, rfl⟩
abbrev main_c_6 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call2_v0 : Ref sig .tc := ⟨.hbm, 101, rfl⟩
abbrev main_call2_cst : Ref sig .tc := ⟨.hbm, 102, rfl⟩
abbrev main_call2_v1 : Ref sig .tc := ⟨.hbm, 103, rfl⟩
abbrev main_call2_v2 : Ref sig .tc := ⟨.hbm, 104, rfl⟩
abbrev main_v69 : Ref sig .tc := ⟨.hbm, 105, rfl⟩
abbrev main_cst_11 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_12 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_13 : Ref sig .tc := ⟨.hbm, 115, rfl⟩
abbrev main_v77 : Ref sig .tc := ⟨.hbm, 116, rfl⟩
abbrev main_cst_14 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_15 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_16 : Ref sig .tc := ⟨.hbm, 134, rfl⟩
abbrev main_v93 : Ref sig .tc := ⟨.hbm, 135, rfl⟩
abbrev main_v94 : Ref sig .tc := ⟨.hbm, 136, rfl⟩
abbrev main_cst_17 : Ref sig .tc := ⟨.hbm, 137, rfl⟩
abbrev main_v95 : Ref sig .tc := ⟨.hbm, 138, rfl⟩
abbrev main_v96 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  bcast_S50000x1_S50000x256_0_1 : S50000x1.BroadcastsInDim S50000x256 (![0, 1] : Fin 2 → Fin S50000x256.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  transposes_S1x256_S256x1_1_0 : S1x256.Transposes [1, 0] S256x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x256_S50000x256_1_0_0_1_n_n_wf : DotDims.WF S50000x128 S128x256 S50000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x1_S512x1_1_0_0_1_n_n_wf : DotDims.WF S512x256 S256x1 S512x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.KernelRun.lean ====
/-
  The idealized kernel's run with its result NAMED: every weakly fair execution of @main terminates, nothing
  faulting, the thirteen argument arrays end as launched, and the result buffer ends at the contents the last
  region's write-backs leave (`Gen.W8`: the fold of the buffer contents through the four host stretches and the four
  regions of @main). The later modules read `Gen.W8` back, boundary by boundary, to a function of the arguments.
-/
import proofs.«176643_j58703613002017_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's eight segments, the last thread state read against the final memory: the result buffer
    at `Gen.W8`, each argument read back through the fold to its launch contents. -/
theorem run : θ_run defs (onTc (τ := τ) (main (F := F))) ⟨m, fun _ => 0, ρ⟩ (fun r => ∀ c : Dev nD,
      r.2.mem ((c.tc : Thread nD τ).loc main_v61) = W8 m ρ c (Proc.devRef .tc main_v61)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Named

end
-- ==== Proof.Spec.lean ====
/-
  The mathematics both programs compute, stated once over plain coordinate functions on the extended reals.

  A dense layer sends row `r` of `x` to `∑ k, x r k · w j k + b j` (the weight matrix is contracted along its
  SECOND axis: `x · wᵀ + b`). A graph-convolution step adds two such products, the aggregated neighbours against
  `wl` and the node's own features against `wr`, and then scales every row to unit Euclidean length, the length
  clamped below by the float nearest `1e-12` (kept as its binary word: both programs spell the same word, so its
  value is never needed). The head is the logistic function of one more row product.
-/
import Idealize.ShloMosaic.PureOps.Ideal
import Idealize.ShloMosaic.PureOps.Ideal.Laws
import Idealize.ShloMosaic.Lib.ValueIdx

noncomputable section

namespace Cert.Spec

open Idealize.ShloMosaic

/-- The lower clamp of a row's length: the f32 word nearest `1e-12`, at its exact binary value. -/
def eps : EReal := Ideal.ofBits .f32 0x2B8CBCCC#32

/-- The f32 zero word (the rectifier's threshold), at its exact value. -/
def zero : EReal := Ideal.ofBits .f32 0x00000000#32

variable {n K M : ℕ}

/-- A rank-2 array read by its two coordinates. -/
def at2 {n0 n1 : ℕ} (A : (⟨2, ![n0, n1]⟩ : Shape).Idx → EReal) (r : Fin n0) (k : Fin n1) : EReal := A (ValueIdx.ix2 r k)

/-- A rank-1 array read by its coordinate. -/
def at1 {n0 : ℕ} (A : (⟨1, ![n0]⟩ : Shape).Idx → EReal) (k : Fin n0) : EReal := A (ValueIdx.ix1 k)

/-- `x · wᵀ + b`, entry `(r, j)`. -/
def affine (x : Fin n → Fin K → EReal) (w : Fin M → Fin K → EReal) (b : Fin M → EReal) (r : Fin n) (j : Fin M) : EReal :=
  (∑ k : Fin K, x r k * w j k) + b j

/-- `a · wlᵀ + bl + h · wrᵀ`, entry `(r, j)`: the convolution before it is scaled. -/
def pre (a h : Fin n → Fin K → EReal) (wl : Fin M → Fin K → EReal) (bl : Fin M → EReal) (wr : Fin M → Fin K → EReal)
    (r : Fin n) (j : Fin M) : EReal :=
  (∑ k : Fin K, a r k * wl j k) + bl j + ∑ k : Fin K, h r k * wr j k

/-- Row `r` of `p` divided by its Euclidean length, the length clamped below by `eps`. -/
def unitRow (p : Fin n → Fin M → EReal) (r : Fin n) (j : Fin M) : EReal :=
  Ideal.div (p r j) (max (Ideal.sqrt (∑ j' : Fin M, p r j' * p r j')) eps)

/-- The convolution step: `pre`, every row scaled to unit length. -/
def conv (a h : Fin n → Fin K → EReal) (wl : Fin M → Fin K → EReal) (bl : Fin M → EReal) (wr : Fin M → Fin K → EReal)
    (r : Fin n) (j : Fin M) : EReal :=
  unitRow (pre a h wl bl wr) r j

/-- The convolution step followed by the rectifier `max · 0`. -/
def convRelu (a h : Fin n → Fin K → EReal) (wl : Fin M → Fin K → EReal) (bl : Fin M → EReal) (wr : Fin M → Fin K → EReal)
    (r : Fin n) (j : Fin M) : EReal :=
  max (conv a h wl bl wr r j) zero

/-- The head: the logistic function of `∑ k, p r k · w k + b`. -/
def head (p : Fin n → Fin K → EReal) (w : Fin K → EReal) (b : EReal) (r : Fin n) : EReal :=
  Ideal.logistic ((∑ k : Fin K, p r k * w k) + b)

/-! ## The same functions as whole arrays -/

/-- `affine` as a `[n, M]` array of a `[n, K]` array, a `[M, K]` array and a bias row. -/
def affineArr (X : (⟨2, ![n, K]⟩ : Shape).Idx → EReal) (W : (⟨2, ![M, K]⟩ : Shape).Idx → EReal) (b : Fin M → EReal) :
    (⟨2, ![n, M]⟩ : Shape).Idx → EReal :=
  fun i => affine (at2 X) (at2 W) b (i 0) (i 1)

/-- `conv` as a `[n, M]` array. -/
def convArr (A H : (⟨2, ![n, K]⟩ : Shape).Idx → EReal) (Wl : (⟨2, ![M, K]⟩ : Shape).Idx → EReal) (bl : Fin M → EReal)
    (Wr : (⟨2, ![M, K]⟩ : Shape).Idx → EReal) : (⟨2, ![n, M]⟩ : Shape).Idx → EReal :=
  fun i => conv (at2 A) (at2 H) (at2 Wl) bl (at2 Wr) (i 0) (i 1)

/-- `convRelu` as a `[n, M]` array. -/
def convReluArr (A H : (⟨2, ![n, K]⟩ : Shape).Idx → EReal) (Wl : (⟨2, ![M, K]⟩ : Shape).Idx → EReal) (bl : Fin M → EReal)
    (Wr : (⟨2, ![M, K]⟩ : Shape).Idx → EReal) : (⟨2, ![n, M]⟩ : Shape).Idx → EReal :=
  fun i => convRelu (at2 A) (at2 H) (at2 Wl) bl (at2 Wr) (i 0) (i 1)

/-- `head` as a `[n, 1]` array. -/
def headArr (P : (⟨2, ![n, K]⟩ : Shape).Idx → EReal) (w : Fin K → EReal) (b : EReal) : (⟨2, ![n, 1]⟩ : Shape).Idx → EReal :=
  fun i => head (at2 P) w b (i 0)

end Cert.Spec

end
-- ==== Proof.Dense.lean ====
/-
  Region 0 of the idealized kernel: the input projection `x · Wᵀ + b`, ten row blocks of 5000 rows.
  Read at an entry `(p, q)` of a block, the body's stored value is the row `p` of the block of `x` against the row
  `q` of `W` (a matrix product into a zero accumulator is the plain sum over the contracted axis; the change of
  format to bf16 is the identity on extended reals), plus the bias row at `q`.
-/
import proofs.«176643_j58703613002017_2_alg».proof.Proof.Gen.KernelIdeal.Frame
import proofs.«176643_j58703613002017_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense

open Cert.KernelIdeal Cert.KernelIdeal.Gen
open Idealize.ShloMosaic Idealize.ShloMosaic.TcCoe Idealize.SL.Sem
open Idealize.ShloMosaic.ValueIdx
open Idealize.ShloMosaic.Pipeline (Dat)

/-- The operand indices of the product `l · rᵀ` at output `i` and contraction index `k`: `l` is read at
    `(i 0, k)`, `r` at `(i 1, k)`. -/
theorem lhs_0 (i : S5000x128.Idx) (k : dot_S5000x128_S128x128_S5000x128_1_1_0_0_n_n.contr.Idx) : (dot_S5000x128_S128x128_S5000x128_1_1_0_0_n_n.lhsIdx i k 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
theorem lhs_1 (i : S5000x128.Idx) (k : dot_S5000x128_S128x128_S5000x128_1_1_0_0_n_n.contr.Idx) : (dot_S5000x128_S128x128_S5000x128_1_1_0_0_n_n.lhsIdx i k 1).val = (k ⟨0, by decide⟩).val :=
  dot_S5000x128_S128x128_S5000x128_1_1_0_0_n_n.lhsIdx_val_of_single rfl i k
theorem rhs_0 (i : S5000x128.Idx) (k : dot_S5000x128_S128x128_S5000x128_1_1_0_0_n_n.contr.Idx) : (dot_S5000x128_S128x128_S5000x128_1_1_0_0_n_n.rhsIdx i k 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
theorem rhs_1 (i : S5000x128.Idx) (k : dot_S5000x128_S128x128_S5000x128_1_1_0_0_n_n.contr.Idx) : (dot_S5000x128_S128x128_S5000x128_1_1_0_0_n_n.rhsIdx i k 1).val = (k ⟨0, by decide⟩).val :=
  dot_S5000x128_S128x128_S5000x128_1_1_0_0_n_n.rhsIdx_val_of_single rfl i k

/-- A matrix product `l · rᵀ` (both operands contracted along their second axis) into the zero accumulator, read at
    `(p, q)`: the sum over `k` of `l (p, k) · r (q, k)`. -/
theorem matmul_nt_at (l : FVec Ideal S5000x128 .bf16) (r : FVec Ideal S128x128 .bf16) (p : Fin 5000) (q : Fin 128) :
    matmul dot_S5000x128_S128x128_S5000x128_1_1_0_0_n_n none l r (constant S5000x128 .f32 0x00000000#32) (ix2 p q)
      = ∑ k : Fin 128, l (ix2 p k) * r (ix2 q k) := by
  show FloatOps.matmul dot_S5000x128_S128x128_S5000x128_1_1_0_0_n_n none l r (constant S5000x128 .f32 0x00000000#32) (ix2 p q) = _
  rw [Ideal.matmul_constant_zero_apply, ← Equiv.sum_comp (ValueIdx.contrEquiv1 dot_S5000x128_S128x128_S5000x128_1_1_0_0_n_n 128 rfl rfl).symm]
  refine Finset.sum_congr rfl fun k _ => ?_
  have hk := ValueIdx.contrEquiv1_symm_val dot_S5000x128_S128x128_S5000x128_1_1_0_0_n_n 128 rfl rfl k
  have el : dot_S5000x128_S128x128_S5000x128_1_1_0_0_n_n.lhsIdx (ix2 p q) ((ValueIdx.contrEquiv1 dot_S5000x128_S128x128_S5000x128_1_1_0_0_n_n 128 rfl rfl).symm k) = ix2 p k :=
    funext fun a => Fin.ext (by
      match a with
      | ⟨0, _⟩ => exact lhs_0 _ _
      | ⟨1, _⟩ => exact (lhs_1 _ _).trans hk)
  have er : dot_S5000x128_S128x128_S5000x128_1_1_0_0_n_n.rhsIdx (ix2 p q) ((ValueIdx.contrEquiv1 dot_S5000x128_S128x128_S5000x128_1_1_0_0_n_n 128 rfl rfl).symm k) = ix2 q k :=
    funext fun a => Fin.ext (by
      match a with
      | ⟨0, _⟩ => exact rhs_0 _ _
      | ⟨1, _⟩ => exact (rhs_1 _ _).trans hk)
  rw [el, er]

/-- The body's stored value at entry `(p, q)` of a block. -/
theorem pay_at (x0 : Vec Ideal S5000x128 .f32) (x1 : Vec Ideal S128x128 .f32) (x2 : Vec Ideal S1x128 .f32) (p : Fin 5000) (q : Fin 128) :
    k0_pay1 x0 x1 x2 (ix2 p q) = (∑ k : Fin 128, x0 (ix2 p k) * x1 (ix2 q k)) + x2 (ix2 (0 : Fin 1) q) := by
  unfold k0_pay1
  rw [addf_apply, matmul_nt_at, shapeCast_self, broadcastTo_1b_ab_apply]
  rfl

/-! ## From the ten blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: point `t` takes row block `t` of `x` and of the result, and the one
    block of the weights and of the bias row. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the projected array of the arrays the region finds. -/
theorem flushed_eq (c : Dev nD) (t : Fin cfg0.N) :
    (dat0 V c).flushed 3 t = ((cfg0.win 3).blk t).view.read (Elt Ideal)
      (Spec.affineArr (n := 50000) (K := 128) (M := 128) (V c main_arg0) (V c main_arg3) (fun j => V c main_v4 (ix2 (0 : Fin 1) j))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e00, e01, e10, e11, e20, e21, e30, e31⟩ := idx_facts t
  have ht : t.val < 10 := lt_of_lt_of_eq t.isLt N_0
  refine funext fun (j : S5000x128.Idx) => ?_
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = Spec.affineArr (n := 50000) (K := 128) (M := 128) (V c main_arg0) (V c main_arg3) (fun j => V c main_v4 (ix2 (0 : Fin 1) j))
        (((cfg0.win 3).blk t).view.emb (ix2 p q))
  refine (pay_at (iblk0 V c 0 t) (iblk0 V c 1 t) (iblk0 V c 2 t) p q).trans ?_
  have hp : p.val < 5000 := p.isLt
  have hR : t.val * 5000 + p.val < 50000 := by omega
  have e3 : ((cfg0.win 3).blk t).view.emb (ix2 p q) = (ix2 (⟨t.val * 5000 + p.val, hR⟩ : Fin 50000) q : S50000x128.Idx) := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have e0 : ∀ k : Fin 128, iblk0 V c 0 t (ix2 p k) = V c main_arg0 (ix2 (⟨t.val * 5000 + p.val, hR⟩ : Fin 50000) k : S50000x128.Idx) := fun k => by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have e1 : ∀ k : Fin 128, iblk0 V c 1 t (ix2 q k) = V c main_arg3 (ix2 q k : S128x128.Idx) := fun k => by
    show V c main_arg3 (((cfg0.win 1).blk t).view.emb (ix2 q k)) = _
    refine congrArg (V c main_arg3) ?_
    funext a; apply Fin.ext
    match a with
    | ⟨0, _⟩ => show win0_1.index t (0 : Fin 2) * 128 + 1 * q.val = q.val; omega
    | ⟨1, _⟩ => show win0_1.index t (1 : Fin 2) * 128 + 1 * k.val = k.val; omega
  have e2 : iblk0 V c 2 t (ix2 (0 : Fin 1) q) = V c main_v4 (ix2 (0 : Fin 1) q : S1x128.Idx) := by
    show V c main_v4 (((cfg0.win 2).blk t).view.emb (ix2 (0 : Fin 1) q)) = _
    refine congrArg (V c main_v4) ?_
    funext a; apply Fin.ext
    match a with
    | ⟨0, _⟩ => show win0_2.index t (0 : Fin 2) * 1 + 1 * 0 = 0; omega
    | ⟨1, _⟩ => show win0_2.index t (1 : Fin 2) * 128 + 1 * q.val = q.val; omega
  rw [e3, e2]
  exact congrArg (· + _) (Finset.sum_congr rfl fun k _ => by rw [e0 k, e1 k]; rfl)

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- Every row lies in the block of the point `row / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  have hlt : (i 0).val / 5000 < grid0.N := by omega
  obtain ⟨-, -, -, -, -, -, e30, e31⟩ := idx_facts ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000
    omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    omega

/-- The array region 0 leaves: the projection of the arrays it finds. -/
theorem final (c : Dev nD) :
    (dat0 V c).arrAt 3 cfg0.N
      = Spec.affineArr (n := 50000) (K := 128) (M := 128) (V c main_arg0) (V c main_arg3) (fun j => V c main_v4 (ix2 (0 : Fin 1) j)) :=
  (dat0 V c).arrAt_eq_of_cover 3 _ (fun t _ => flushed_eq V c t) cover

end Cert.KernelIdeal.Dense

end
-- ==== Proof.SpecCongr.lean ====
/-
  The specification functions depend on a row only through that row's entries: if row `r` of one pair of arrays is
  row `r'` of another pair (a block's row against the whole array's row), the results at `r` and `r'` agree. This
  is what carries a statement about one block of rows over to the array.
-/
import proofs.«176643_j58703613002017_2_alg».proof.Proof.Spec

noncomputable section

namespace Cert.Spec

open Idealize.ShloMosaic

variable {n n' K M : ℕ}

theorem affine_congr {x : Fin n → Fin K → EReal} {x' : Fin n' → Fin K → EReal} (w : Fin M → Fin K → EReal) (b : Fin M → EReal)
    {r : Fin n} {r' : Fin n'} (hx : ∀ k, x r k = x' r' k) (j : Fin M) : affine x w b r j = affine x' w b r' j := by
  unfold affine; simp only [hx]

theorem pre_congr {a h : Fin n → Fin K → EReal} {a' h' : Fin n' → Fin K → EReal} (wl : Fin M → Fin K → EReal) (bl : Fin M → EReal)
    (wr : Fin M → Fin K → EReal) {r : Fin n} {r' : Fin n'} (ha : ∀ k, a r k = a' r' k) (hh : ∀ k, h r k = h' r' k) (j : Fin M) :
    pre a h wl bl wr r j = pre a' h' wl bl wr r' j := by
  unfold pre; simp only [ha, hh]

theorem conv_congr {a h : Fin n → Fin K → EReal} {a' h' : Fin n' → Fin K → EReal} (wl : Fin M → Fin K → EReal) (bl : Fin M → EReal)
    (wr : Fin M → Fin K → EReal) {r : Fin n} {r' : Fin n'} (ha : ∀ k, a r k = a' r' k) (hh : ∀ k, h r k = h' r' k) (j : Fin M) :
    conv a h wl bl wr r j = conv a' h' wl bl wr r' j := by
  unfold conv unitRow; simp only [pre_congr wl bl wr ha hh]

theorem convRelu_congr {a h : Fin n → Fin K → EReal} {a' h' : Fin n' → Fin K → EReal} (wl : Fin M → Fin K → EReal) (bl : Fin M → EReal)
    (wr : Fin M → Fin K → EReal) {r : Fin n} {r' : Fin n'} (ha : ∀ k, a r k = a' r' k) (hh : ∀ k, h r k = h' r' k) (j : Fin M) :
    convRelu a h wl bl wr r j = convRelu a' h' wl bl wr r' j := by
  unfold convRelu; rw [conv_congr wl bl wr ha hh]

theorem head_congr {p : Fin n → Fin K → EReal} {p' : Fin n' → Fin K → EReal} (w : Fin K → EReal) (b : EReal)
    {r : Fin n} {r' : Fin n'} (hp : ∀ k, p r k = p' r' k) : head p w b r = head p' w b r' := by
  unfold head; simp only [hp]

end Cert.Spec

end
-- ==== Proof.LibLayoutCols.lean ====
/-
  Layout facts for a row statistic kept as a column (`keepdims`): an `[a]` array cast to `[a, 1]`, an `[a, 1]` column
  broadcast across `[a, b]`, and a sum along the second axis of an `[a, b]` array read at a row. General: they mention
  no program.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.LayoutCols

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float sum along the second axis of an `[a, b]` array of extended reals, read at row `p`: the sum over the
    row's entries. (The accumulator's word is the sum's neutral element, whatever way its proof is spelt.) -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.Lib.LayoutCols

end
-- ==== Proof.Conv1.lean ====
/-
  Region 1 of the idealized kernel: the first graph-convolution step, ten row blocks of 5000 nodes.
  The body adds the aggregated neighbours' block against `wl`, the bias row and the nodes' own block against `wr`,
  scales every row to unit Euclidean length (the length clamped below by the float nearest `1e-12`) and applies
  the rectifier. Read at an entry of a block this is `Spec.convRelu` of the blocks; over the ten blocks, of the arrays.
-/
import proofs.«176643_j58703613002017_2_alg».proof.Proof.Gen.KernelIdeal.Frame
import proofs.«176643_j58703613002017_2_alg».proof.Proof.Spec
import proofs.«176643_j58703613002017_2_alg».proof.Proof.Dense
import proofs.«176643_j58703613002017_2_alg».proof.Proof.SpecCongr
import proofs.«176643_j58703613002017_2_alg».proof.Proof.LibLayoutCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv1

open Cert.KernelIdeal Cert.KernelIdeal.Gen
open Idealize.ShloMosaic Idealize.ShloMosaic.TcCoe Idealize.SL.Sem
open Idealize.ShloMosaic.ValueIdx
open Idealize.ShloMosaic.Pipeline (Dat)
open Cert.Lib.LayoutCols

/-- The convolution before scaling, at entry `(p, q)` of a block: the aggregated block against `wl`, plus the bias
    row, plus the node block against `wr` (both products contract the weights' second axis). -/
theorem pre_at (v0 v3 : Vec Ideal S5000x128 .f32) (v6 v8 : Vec Ideal S128x128 .f32) (v11 : Vec Ideal S1x128 .f32)
    (hc : S5000x128.ShapeCasts S5000x128) (hb : S1x128.ShapeCasts S1x128) (hbr : S1x128.Broadcasts S5000x128) (p : Fin 5000) (q : Fin 128) :
    (addf (addf (matmul dot_S5000x128_S128x128_S5000x128_1_1_0_0_n_n none (truncf .bf16 (shapeCast S5000x128 v0 hc) bitsLt_bf16_f32 : FVec Ideal S5000x128 .bf16) (truncf .bf16 v6 bitsLt_bf16_f32 : FVec Ideal S128x128 .bf16) (constant (F := Ideal) S5000x128 .f32 0x00000000#32))
               (broadcastTo S5000x128 (shapeCast S1x128 v11 hb) hbr))
         (matmul dot_S5000x128_S128x128_S5000x128_1_1_0_0_n_n none (truncf .bf16 (shapeCast S5000x128 v3 hc) bitsLt_bf16_f32 : FVec Ideal S5000x128 .bf16) (truncf .bf16 v8 bitsLt_bf16_f32 : FVec Ideal S128x128 .bf16) (constant (F := Ideal) S5000x128 .f32 0x00000000#32)) : FVec Ideal S5000x128 .f32) (ix2 p q)
      = Spec.pre (Spec.at2 v0) (Spec.at2 v3) (Spec.at2 v6) (fun j => v11 (ix2 (0 : Fin 1) j)) (Spec.at2 v8) p q := by
  rw [addf_apply, addf_apply, Dense.matmul_nt_at, Dense.matmul_nt_at, shapeCast_self, shapeCast_self, shapeCast_self, broadcastTo_1b_ab_apply]
  rfl

/-- Scaling a block's rows to unit length, at entry `(p, q)`, for ANY block `P`: the entry over the clamped square
    root of the row's sum of squares (the sum along the second axis read at row `p`, kept as a column, the column
    read back at every entry of the row). -/
theorem unit_at (P : FVec Ideal S5000x128 .f32) (hr : S5000x128.Reduces [1] S5000) (hφ : FKind.Formats .f32)
    (hacc : (0x00000000#32 : BitVec 32) = FKind.add.neutral .f32 hφ) (hc : S5000.ShapeCasts S5000x1) (hb : S5000x1.Broadcasts S5000x128)
    (e : Ideal .f32) (p : Fin 5000) (q : Fin 128) :
    divf P (broadcastTo S5000x128 (maximumf (sqrt (shapeCast S5000x1 (multiReduction .add [1] S5000 (mulf P P) 0x00000000#32 hr hφ hacc) hc))
      (broadcast S5000x1 e)) hb) (ix2 p q)
      = Ideal.div (P (ix2 p q)) (max (Ideal.sqrt (∑ j : Fin 128, P (ix2 p j) * P (ix2 p j))) e) := by
  rw [divf_apply]
  refine congrArg (Ideal.div (P (ix2 p q))) ?_
  refine (broadcastTo_a1_ab_apply _ hb p q).trans ?_
  rw [maximumf_apply]
  refine congrArg₂ max ?_ rfl
  show Ideal.sqrt _ = Ideal.sqrt _
  refine congrArg Ideal.sqrt ?_
  refine (shapeCast_a_a1_apply _ hc p (0 : Fin 1)).trans ?_
  exact rowSum_apply (mulf P P) 0x00000000#32 hr hφ hacc p

/-- The body's stored value at entry `(p, q)` of a block. -/
theorem pay_at (v0 v3 : Vec Ideal S5000x128 .f32) (v6 v8 : Vec Ideal S128x128 .f32) (v11 : Vec Ideal S1x128 .f32) (p : Fin 5000) (q : Fin 128) :
    k1_pay1 v0 v3 v6 v8 v11 (ix2 p q)
      = Spec.convRelu (Spec.at2 v0) (Spec.at2 v3) (Spec.at2 v6) (fun j => v11 (ix2 (0 : Fin 1) j)) (Spec.at2 v8) p q := by
  unfold k1_pay1
  dsimp only
  rw [maximumf_apply]
  refine congrArg₂ max ?_ rfl
  refine (unit_at _ _ _ _ _ _ _ p q).trans ?_
  simp only [pre_at]
  rfl

/-! ## From the 10 blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: point `t` takes row block `t` of the aggregated array, of the node
    array and of the result, and the one block of each weight matrix and of the bias row. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the convolution of the arrays the region finds. -/
theorem flushed_eq (c : Dev nD) (t : Fin cfg1.N) :
    (dat1 V c).flushed 5 t = ((cfg1.win 5).blk t).view.read (Elt Ideal)
      (Spec.convReluArr (n := 50000) (K := 128) (M := 128) (V c main_v24) (V c main_v5) (V c main_arg5) (fun j => V c main_v25 (ix2 (0 : Fin 1) j)) (V c main_arg7)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  have ht : t.val < 10 := lt_of_lt_of_eq t.isLt N_1
  refine funext fun (j : S5000x128.Idx) => ?_
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 4 t) (iblk1 V c 3 t) (ix2 p q)
    = Spec.convReluArr (n := 50000) (K := 128) (M := 128) (V c main_v24) (V c main_v5) (V c main_arg5) (fun j => V c main_v25 (ix2 (0 : Fin 1) j)) (V c main_arg7)
        (((cfg1.win 5).blk t).view.emb (ix2 p q))
  refine (pay_at (iblk1 V c 0 t) (iblk1 V c 1 t) (iblk1 V c 2 t) (iblk1 V c 4 t) (iblk1 V c 3 t) p q).trans ?_
  have hp : p.val < 5000 := p.isLt
  have hR : t.val * 5000 + p.val < 50000 := by omega
  have e5 : ((cfg1.win 5).blk t).view.emb (ix2 p q) = (ix2 (⟨t.val * 5000 + p.val, hR⟩ : Fin 50000) q : S50000x128.Idx) := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  have e0 : ∀ k : Fin 128, iblk1 V c 0 t (ix2 p k) = V c main_v24 (ix2 (⟨t.val * 5000 + p.val, hR⟩ : Fin 50000) k : S50000x128.Idx) := fun k => by
    show V c main_v24 (((cfg1.win 0).blk t).view.emb (ix2 p k)) = _
    refine congrArg (V c main_v24) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have e1 : ∀ k : Fin 128, iblk1 V c 1 t (ix2 p k) = V c main_v5 (ix2 (⟨t.val * 5000 + p.val, hR⟩ : Fin 50000) k : S50000x128.Idx) := fun k => by
    show V c main_v5 (((cfg1.win 1).blk t).view.emb (ix2 p k)) = _
    refine congrArg (V c main_v5) ?_
    funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  have e2 : ∀ (j : Fin 128) (k : Fin 128), iblk1 V c 2 t (ix2 j k) = V c main_arg5 (ix2 j k : S128x128.Idx) := fun j k => by
    show V c main_arg5 (((cfg1.win 2).blk t).view.emb (ix2 j k)) = _
    refine congrArg (V c main_arg5) ?_
    funext a; apply Fin.ext
    match a with
    | ⟨0, _⟩ => show win1_2.index t (0 : Fin 2) * 128 + 1 * j.val = j.val; omega
    | ⟨1, _⟩ => show win1_2.index t (1 : Fin 2) * 128 + 1 * k.val = k.val; omega
  have e3 : ∀ j : Fin 128, iblk1 V c 3 t (ix2 (0 : Fin 1) j) = V c main_v25 (ix2 (0 : Fin 1) j : S1x128.Idx) := fun j => by
    show V c main_v25 (((cfg1.win 3).blk t).view.emb (ix2 (0 : Fin 1) j)) = _
    refine congrArg (V c main_v25) ?_
    funext a; apply Fin.ext
    match a with
    | ⟨0, _⟩ => show win1_3.index t (0 : Fin 2) * 1 + 1 * 0 = 0; omega
    | ⟨1, _⟩ => show win1_3.index t (1 : Fin 2) * 128 + 1 * j.val = j.val; omega
  have e4 : ∀ (j : Fin 128) (k : Fin 128), iblk1 V c 4 t (ix2 j k) = V c main_arg7 (ix2 j k : S128x128.Idx) := fun j k => by
    show V c main_arg7 (((cfg1.win 4).blk t).view.emb (ix2 j k)) = _
    refine congrArg (V c main_arg7) ?_
    funext a; apply Fin.ext
    match a with
    | ⟨0, _⟩ => show win1_4.index t (0 : Fin 2) * 128 + 1 * j.val = j.val; omega
    | ⟨1, _⟩ => show win1_4.index t (1 : Fin 2) * 128 + 1 * k.val = k.val; omega
  have ewl : Spec.at2 (n0 := 128) (n1 := 128) (iblk1 V c 2 t) = Spec.at2 (n0 := 128) (n1 := 128) (V c main_arg5) := funext fun j => funext fun k => e2 j k
  have ewr : Spec.at2 (n0 := 128) (n1 := 128) (iblk1 V c 4 t) = Spec.at2 (n0 := 128) (n1 := 128) (V c main_arg7) := funext fun j => funext fun k => e4 j k
  have ebl : (fun j : Fin 128 => iblk1 V c 3 t (ix2 (0 : Fin 1) j)) = (fun j : Fin 128 => V c main_v25 (ix2 (0 : Fin 1) j : S1x128.Idx)) := funext e3
  rw [e5, ewl, ewr, ebl]
  exact Spec.convRelu_congr _ _ _ (fun k => e0 k) (fun k => e1 k) q

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v26).slice (win1_5.rect t)).set ↔ _
  rw [View.set_slice_whole, Rect.mem_set_unit]
  exact Iff.rfl

/-- Every row lies in the block of the point `row / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  have hlt : (i 0).val / 5000 < grid1.N := by omega
  obtain ⟨-, -, -, -, -, -, -, -, -, -, e50, e51⟩ := idx_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e50]; show (i 0).val / 5000 * 5000 ≤ (i 0).val ∧ (i 0).val < (i 0).val / 5000 * 5000 + 5000
    omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    omega

/-- The array region 1 leaves: the convolution of the arrays it finds. -/
theorem final (c : Dev nD) :
    (dat1 V c).arrAt 5 cfg1.N
      = Spec.convReluArr (n := 50000) (K := 128) (M := 128) (V c main_v24) (V c main_v5) (V c main_arg5) (fun j => V c main_v25 (ix2 (0 : Fin 1) j)) (V c main_arg7) :=
  (dat1 V c).arrAt_eq_of_cover 5 _ (fun t _ => flushed_eq V c t) cover

end Cert.KernelIdeal.Conv1

end
-- ==== Proof.Conv2.lean ====
/-
  Region 2 of the idealized kernel: the second graph-convolution step, twenty-five row blocks of 2000 nodes, 256
  output columns, no rectifier. The body adds the aggregated neighbours' block against `wl`, the bias row and the
  nodes' own block against `wr`, and scales every row to unit Euclidean length (the length clamped below by the
  float nearest `1e-12`). Read at an entry of a block this is `Spec.conv` of the blocks; over the blocks, of the arrays.
-/
import proofs.«176643_j58703613002017_2_alg».proof.Proof.Gen.KernelIdeal.Frame
import proofs.«176643_j58703613002017_2_alg».proof.Proof.Spec
import proofs.«176643_j58703613002017_2_alg».proof.Proof.SpecCongr
import proofs.«176643_j58703613002017_2_alg».proof.Proof.LibLayoutCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv2

open Cert.KernelIdeal Cert.KernelIdeal.Gen
open Idealize.ShloMosaic Idealize.ShloMosaic.TcCoe Idealize.SL.Sem
open Idealize.ShloMosaic.ValueIdx
open Idealize.ShloMosaic.Pipeline (Dat)
open Cert.Lib.LayoutCols

/-- The operand indices of the product `l · rᵀ` at output `i` and contraction index `k`: `l` is read at
    `(i 0, k)`, `r` at `(i 1, k)`. -/
theorem lhs_0 (i : S2000x256.Idx) (k : dot_S2000x128_S256x128_S2000x256_1_1_0_0_n_n.contr.Idx) : (dot_S2000x128_S256x128_S2000x256_1_1_0_0_n_n.lhsIdx i k 0).val = (i 0).val := by
  unfold DotDims.lhsIdx
  rw [dif_neg (show ¬(0 : Fin S2000x128.rank) ∈ dot_S2000x128_S256x128_S2000x256_1_1_0_0_n_n.lhsBatch by decide), dif_pos (show (0 : Fin S2000x128.rank) ∈ dot_S2000x128_S256x128_S2000x256_1_1_0_0_n_n.lhsNonContracting by decide)]
  rfl
theorem lhs_1 (i : S2000x256.Idx) (k : dot_S2000x128_S256x128_S2000x256_1_1_0_0_n_n.contr.Idx) : (dot_S2000x128_S256x128_S2000x256_1_1_0_0_n_n.lhsIdx i k 1).val = (k ⟨0, by decide⟩).val :=
  dot_S2000x128_S256x128_S2000x256_1_1_0_0_n_n.lhsIdx_val_of_single rfl i k
theorem rhs_0 (i : S2000x256.Idx) (k : dot_S2000x128_S256x128_S2000x256_1_1_0_0_n_n.contr.Idx) : (dot_S2000x128_S256x128_S2000x256_1_1_0_0_n_n.rhsIdx i k 0).val = (i 1).val := by
  unfold DotDims.rhsIdx
  rw [dif_neg (show ¬(0 : Fin S256x128.rank) ∈ dot_S2000x128_S256x128_S2000x256_1_1_0_0_n_n.rhsBatch by decide), dif_pos (show (0 : Fin S256x128.rank) ∈ dot_S2000x128_S256x128_S2000x256_1_1_0_0_n_n.rhsNonContracting by decide)]
  rfl
theorem rhs_1 (i : S2000x256.Idx) (k : dot_S2000x128_S256x128_S2000x256_1_1_0_0_n_n.contr.Idx) : (dot_S2000x128_S256x128_S2000x256_1_1_0_0_n_n.rhsIdx i k 1).val = (k ⟨0, by decide⟩).val :=
  dot_S2000x128_S256x128_S2000x256_1_1_0_0_n_n.rhsIdx_val_of_single rfl i k

/-- A matrix product `l · rᵀ` (both operands contracted along their second axis) into the zero accumulator, read at
    `(p, q)`: the sum over `k` of `l (p, k) · r (q, k)`. -/
theorem matmul_nt_at (l : FVec Ideal S2000x128 .bf16) (r : FVec Ideal S256x128 .bf16) (p : Fin 2000) (q : Fin 256) :
    matmul dot_S2000x128_S256x128_S2000x256_1_1_0_0_n_n none l r (constant S2000x256 .f32 0x00000000#32) (ix2 p q)
      = ∑ k : Fin 128, l (ix2 p k) * r (ix2 q k) := by
  show FloatOps.matmul dot_S2000x128_S256x128_S2000x256_1_1_0_0_n_n none l r (constant S2000x256 .f32 0x00000000#32) (ix2 p q) = _
  rw [Ideal.matmul_constant_zero_apply, ← Equiv.sum_comp (ValueIdx.contrEquiv1 dot_S2000x128_S256x128_S2000x256_1_1_0_0_n_n 128 rfl rfl).symm]
  refine Finset.sum_congr rfl fun k _ => ?_
  have hk := ValueIdx.contrEquiv1_symm_val dot_S2000x128_S256x128_S2000x256_1_1_0_0_n_n 128 rfl rfl k
  have el : dot_S2000x128_S256x128_S2000x256_1_1_0_0_n_n.lhsIdx (ix2 p q) ((ValueIdx.contrEquiv1 dot_S2000x128_S256x128_S2000x256_1_1_0_0_n_n 128 rfl rfl).symm k) = ix2 p k :=
    funext fun a => Fin.ext (by
      match a with
      | ⟨0, _⟩ => exact lhs_0 _ _
      | ⟨1, _⟩ => exact (lhs_1 _ _).trans hk)
  have er : dot_S2000x128_S256x128_S2000x256_1_1_0_0_n_n.rhsIdx (ix2 p q) ((ValueIdx.contrEquiv1 dot_S2000x128_S256x128_S2000x256_1_1_0_0_n_n 128 rfl rfl).symm k) = ix2 q k :=
    funext fun a => Fin.ext (by
      match a with
      | ⟨0, _⟩ => exact rhs_0 _ _
      | ⟨1, _⟩ => exact (rhs_1 _ _).trans hk)
  rw [el, er]

/-- The convolution before scaling, at entry `(p, q)` of a block: the aggregated block against `wl`, plus the bias
    row, plus the node block against `wr` (both products contract the weights' second axis). -/
theorem pre_at (v0 v3 : Vec Ideal S2000x128 .f32) (v6 v8 : Vec Ideal S256x128 .f32) (v11 : Vec Ideal S1x256 .f32)
    (hc : S2000x128.ShapeCasts S2000x128) (hb : S1x256.ShapeCasts S1x256) (hbr : S1x256.Broadcasts S2000x256) (p : Fin 2000) (q : Fin 256) :
    (addf (addf (matmul dot_S2000x128_S256x128_S2000x256_1_1_0_0_n_n none (truncf .bf16 (shapeCast S2000x128 v0 hc) bitsLt_bf16_f32 : FVec Ideal S2000x128 .bf16) (truncf .bf16 v6 bitsLt_bf16_f32 : FVec Ideal S256x128 .bf16) (constant (F := Ideal) S2000x256 .f32 0x00000000#32))
               (broadcastTo S2000x256 (shapeCast S1x256 v11 hb) hbr))
         (matmul dot_S2000x128_S256x128_S2000x256_1_1_0_0_n_n none (truncf .bf16 (shapeCast S2000x128 v3 hc) bitsLt_bf16_f32 : FVec Ideal S2000x128 .bf16) (truncf .bf16 v8 bitsLt_bf16_f32 : FVec Ideal S256x128 .bf16) (constant (F := Ideal) S2000x256 .f32 0x00000000#32)) : FVec Ideal S2000x256 .f32) (ix2 p q)
      = Spec.pre (Spec.at2 v0) (Spec.at2 v3) (Spec.at2 v6) (fun j => v11 (ix2 (0 : Fin 1) j)) (Spec.at2 v8) p q := by
  rw [addf_apply, addf_apply, matmul_nt_at, matmul_nt_at, shapeCast_self, shapeCast_self, shapeCast_self, broadcastTo_1b_ab_apply]
  rfl

/-- Scaling a block's rows to unit length, at entry `(p, q)`, for ANY block `P`: the entry over the clamped square
    root of the row's sum of squares (the sum along the second axis read at row `p`, kept as a column, the column
    read back at every entry of the row). -/
theorem unit_at (P : FVec Ideal S2000x256 .f32) (hr : S2000x256.Reduces [1] S2000) (hφ : FKind.Formats .f32)
    (hacc : (0x00000000#32 : BitVec 32) = FKind.add.neutral .f32 hφ) (hc : S2000.ShapeCasts S2000x1) (hb : S2000x1.Broadcasts S2000x256)
    (e : Ideal .f32) (p : Fin 2000) (q : Fin 256) :
    divf P (broadcastTo S2000x256 (maximumf (sqrt (shapeCast S2000x1 (multiReduction .add [1] S2000 (mulf P P) 0x00000000#32 hr hφ hacc) hc))
      (broadcast S2000x1 e)) hb) (ix2 p q)
      = Ideal.div (P (ix2 p q)) (max (Ideal.sqrt (∑ j : Fin 256, P (ix2 p j) * P (ix2 p j))) e) := by
  rw [divf_apply]
  refine congrArg (Ideal.div (P (ix2 p q))) ?_
  refine (broadcastTo_a1_ab_apply _ hb p q).trans ?_
  rw [maximumf_apply]
  refine congrArg₂ max ?_ rfl
  show Ideal.sqrt _ = Ideal.sqrt _
  refine congrArg Ideal.sqrt ?_
  refine (shapeCast_a_a1_apply _ hc p (0 : Fin 1)).trans ?_
  exact rowSum_apply (mulf P P) 0x00000000#32 hr hφ hacc p

/-- The body's stored value at entry `(p, q)` of a block. -/
theorem pay_at (v0 v3 : Vec Ideal S2000x128 .f32) (v6 v8 : Vec Ideal S256x128 .f32) (v11 : Vec Ideal S1x256 .f32) (p : Fin 2000) (q : Fin 256) :
    k2_pay1 v0 v3 v6 v8 v11 (ix2 p q)
      = Spec.conv (Spec.at2 v0) (Spec.at2 v3) (Spec.at2 v6) (fun j => v11 (ix2 (0 : Fin 1) j)) (Spec.at2 v8) p q := by
  unfold k2_pay1
  dsimp only
  refine (unit_at _ _ _ _ _ _ _ p q).trans ?_
  simp only [pre_at]
  rfl

/-! ## From the 25 blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: point `t` takes row block `t` of the aggregated array, of the node
    array and of the result, and the one block of each weight matrix and of the bias row. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the convolution of the arrays the region finds. -/
theorem flushed_eq (c : Dev nD) (t : Fin cfg2.N) :
    (dat2 V c).flushed 5 t = ((cfg2.win 5).blk t).view.read (Elt Ideal)
      (Spec.convArr (n := 50000) (K := 128) (M := 256) (V c main_v45) (V c main_v26) (V c main_arg8) (fun j => V c main_v46 (ix2 (0 : Fin 1) j)) (V c main_arg10)) := by
  show (cfg2.win 5).cut (grid2.coords t) ((dat2 V c).after 5 t) = _
  rw [after2_5]
  unfold out2_5
  rw [View.canon_unit_zero hz]
  simp only [View.ld_unit_zero (S := S2000x128) hz, View.ld_unit_zero (S := S256x128) hz, View.ld_unit_zero (S := S1x256) hz]
  obtain ⟨e00, e01, e10, e11, e20, e21, e30, e31, e40, e41, e50, e51⟩ := idx_facts t
  have ht : t.val < 25 := lt_of_lt_of_eq t.isLt N_2
  refine funext fun (j : S2000x256.Idx) => ?_
  obtain ⟨p, q, rfl⟩ : ∃ (p : Fin 2000) (q : Fin 256), j = ix2 p q := ⟨j 0, j 1, eq_ix2 j⟩
  show k2_pay1 (iblk2 V c 0 t) (iblk2 V c 1 t) (iblk2 V c 2 t) (iblk2 V c 4 t) (iblk2 V c 3 t) (ix2 p q)
    = Spec.convArr (n := 50000) (K := 128) (M := 256) (V c main_v45) (V c main_v26) (V c main_arg8) (fun j => V c main_v46 (ix2 (0 : Fin 1) j)) (V c main_arg10)
        (((cfg2.win 5).blk t).view.emb (ix2 p q))
  refine (pay_at (iblk2 V c 0 t) (iblk2 V c 1 t) (iblk2 V c 2 t) (iblk2 V c 4 t) (iblk2 V c 3 t) p q).trans ?_
  have hp : p.val < 2000 := p.isLt
  have hR : t.val * 2000 + p.val < 50000 := by omega
  have e5 : ((cfg2.win 5).blk t).view.emb (ix2 p q) = (ix2 (⟨t.val * 2000 + p.val, hR⟩ : Fin 50000) q : S50000x256.Idx) := by
    funext a; apply Fin.ext
    match a with
    | ⟨0, _⟩ => show win2_5.index t (0 : Fin 2) * 2000 + 1 * p.val = t.val * 2000 + p.val; omega
    | ⟨1, _⟩ => show win2_5.index t (1 : Fin 2) * 256 + 1 * q.val = q.val; omega
  have e0 : ∀ k : Fin 128, iblk2 V c 0 t (ix2 p k) = V c main_v45 (ix2 (⟨t.val * 2000 + p.val, hR⟩ : Fin 50000) k : S50000x128.Idx) := fun k => by
    show V c main_v45 (((cfg2.win 0).blk t).view.emb (ix2 p k)) = _
    refine congrArg (V c main_v45) ?_
    funext a; apply Fin.ext
    match a with
    | ⟨0, _⟩ => show win2_0.index t (0 : Fin 2) * 2000 + 1 * p.val = t.val * 2000 + p.val; omega
    | ⟨1, _⟩ => show win2_0.index t (1 : Fin 2) * 128 + 1 * k.val = k.val; omega
  have e1 : ∀ k : Fin 128, iblk2 V c 1 t (ix2 p k) = V c main_v26 (ix2 (⟨t.val * 2000 + p.val, hR⟩ : Fin 50000) k : S50000x128.Idx) := fun k => by
    show V c main_v26 (((cfg2.win 1).blk t).view.emb (ix2 p k)) = _
    refine congrArg (V c main_v26) ?_
    funext a; apply Fin.ext
    match a with
    | ⟨0, _⟩ => show win2_1.index t (0 : Fin 2) * 2000 + 1 * p.val = t.val * 2000 + p.val; omega
    | ⟨1, _⟩ => show win2_1.index t (1 : Fin 2) * 128 + 1 * k.val = k.val; omega
  have e2 : ∀ (j : Fin 256) (k : Fin 128), iblk2 V c 2 t (ix2 j k) = V c main_arg8 (ix2 j k : S256x128.Idx) := fun j k => by
    show V c main_arg8 (((cfg2.win 2).blk t).view.emb (ix2 j k)) = _
    refine congrArg (V c main_arg8) ?_
    funext a; apply Fin.ext
    match a with
    | ⟨0, _⟩ => show win2_2.index t (0 : Fin 2) * 256 + 1 * j.val = j.val; omega
    | ⟨1, _⟩ => show win2_2.index t (1 : Fin 2) * 128 + 1 * k.val = k.val; omega
  have e3 : ∀ j : Fin 256, iblk2 V c 3 t (ix2 (0 : Fin 1) j) = V c main_v46 (ix2 (0 : Fin 1) j : S1x256.Idx) := fun j => by
    show V c main_v46 (((cfg2.win 3).blk t).view.emb (ix2 (0 : Fin 1) j)) = _
    refine congrArg (V c main_v46) ?_
    funext a; apply Fin.ext
    match a with
    | ⟨0, _⟩ => show win2_3.index t (0 : Fin 2) * 1 + 1 * 0 = 0; omega
    | ⟨1, _⟩ => show win2_3.index t (1 : Fin 2) * 256 + 1 * j.val = j.val; omega
  have e4 : ∀ (j : Fin 256) (k : Fin 128), iblk2 V c 4 t (ix2 j k) = V c main_arg10 (ix2 j k : S256x128.Idx) := fun j k => by
    show V c main_arg10 (((cfg2.win 4).blk t).view.emb (ix2 j k)) = _
    refine congrArg (V c main_arg10) ?_
    funext a; apply Fin.ext
    match a with
    | ⟨0, _⟩ => show win2_4.index t (0 : Fin 2) * 256 + 1 * j.val = j.val; omega
    | ⟨1, _⟩ => show win2_4.index t (1 : Fin 2) * 128 + 1 * k.val = k.val; omega
  have ewl : Spec.at2 (n0 := 256) (n1 := 128) (iblk2 V c 2 t) = Spec.at2 (n0 := 256) (n1 := 128) (V c main_arg8) := funext fun j => funext fun k => e2 j k
  have ewr : Spec.at2 (n0 := 256) (n1 := 128) (iblk2 V c 4 t) = Spec.at2 (n0 := 256) (n1 := 128) (V c main_arg10) := funext fun j => funext fun k => e4 j k
  have ebl : (fun j : Fin 256 => iblk2 V c 3 t (ix2 (0 : Fin 1) j)) = (fun j : Fin 256 => V c main_v46 (ix2 (0 : Fin 1) j : S1x256.Idx)) := funext e3
  rw [e5, ewl, ewr, ebl]
  exact Spec.conv_congr _ _ _ (fun k => e0 k) (fun k => e1 k) q

/-- An index of the array is in point `t`'s block iff each coordinate is in the block's range on its axis. -/
theorem mem_blk (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v47).slice (win2_5.rect t)).set ↔ _
  rw [View.set_slice_whole, Rect.mem_set_unit]
  exact Iff.rfl

/-- Every row lies in the block of the point `row / 2000`. -/
theorem cover (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  have hN : grid2.N = 25 := N_2
  have hlt : (i 0).val / 2000 < grid2.N := by omega
  obtain ⟨-, -, -, -, -, -, -, -, -, -, e50, e51⟩ := idx_facts ⟨(i 0).val / 2000, hlt⟩
  refine ⟨⟨(i 0).val / 2000, hlt⟩, flush2_5 _, ?_⟩
  rw [mem_blk]
  intro a
  match a with
  | ⟨0, _⟩ =>
    show win2_5.index ⟨(i 0).val / 2000, hlt⟩ (0 : Fin 2) * 2000 ≤ (i 0).val ∧ (i 0).val < win2_5.index ⟨(i 0).val / 2000, hlt⟩ (0 : Fin 2) * 2000 + 2000
    rw [e50]; show (i 0).val / 2000 * 2000 ≤ (i 0).val ∧ (i 0).val < (i 0).val / 2000 * 2000 + 2000
    omega
  | ⟨1, _⟩ =>
    show win2_5.index ⟨(i 0).val / 2000, hlt⟩ (1 : Fin 2) * 256 ≤ (i 1).val ∧ (i 1).val < win2_5.index ⟨(i 0).val / 2000, hlt⟩ (1 : Fin 2) * 256 + 256
    omega

/-- The array region 2 leaves: the convolution of the arrays it finds. -/
theorem final (c : Dev nD) :
    (dat2 V c).arrAt 5 cfg2.N
      = Spec.convArr (n := 50000) (K := 128) (M := 256) (V c main_v45) (V c main_v26) (V c main_arg8) (fun j => V c main_v46 (ix2 (0 : Fin 1) j)) (V c main_arg10) :=
  (dat2 V c).arrAt_eq_of_cover 5 _ (fun t _ => flushed_eq V c t) cover

end Cert.KernelIdeal.Conv2

end
-- ==== Proof.Head.lean ====
/-
  Region 3 of the idealized kernel: the head, one block. Each pooled row is multiplied entry by entry with the one
  weight row and summed along the row, the bias is added and the logistic function applied: `Spec.head`.
-/
import proofs.«176643_j58703613002017_2_alg».proof.Proof.Gen.KernelIdeal.Frame
import proofs.«176643_j58703613002017_2_alg».proof.Proof.Spec
import proofs.«176643_j58703613002017_2_alg».proof.Proof.SpecCongr
import proofs.«176643_j58703613002017_2_alg».proof.Proof.LibLayoutCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Cert.KernelIdeal Cert.KernelIdeal.Gen
open Idealize.ShloMosaic Idealize.ShloMosaic.TcCoe Idealize.SL.Sem
open Idealize.ShloMosaic.ValueIdx
open Idealize.ShloMosaic.Pipeline (Dat)
open Cert.Lib.LayoutCols

/-- The body's stored value at row `r` (the result has one column). -/
theorem pay_at (v0 : Vec Ideal S512x256 .f32) (v2 : Vec Ideal S1x256 .f32) (v7 : Vec Ideal S1x1 .f32) (r : Fin 512) :
    k3_pay1 v0 v2 v7 (ix2 r (0 : Fin 1))
      = Spec.head (Spec.at2 v0) (fun k => v2 (ix2 (0 : Fin 1) k)) (v7 (ix2 (0 : Fin 1) (0 : Fin 1))) r := by
  unfold k3_pay1
  dsimp only
  show Ideal.logistic _ = Ideal.logistic _
  refine congrArg Ideal.logistic ?_
  rw [addf_apply]
  refine congrArg₂ (· + ·) ?_ ?_
  · refine (shapeCast_a_a1_apply _ _ r (0 : Fin 1)).trans ?_
    refine (rowSum_apply _ 0x00000000#32 _ _ _ r).trans ?_
    refine Finset.sum_congr rfl fun k _ => ?_
    rw [mulf_apply, shapeCast_self, broadcastTo_1b_ab_apply]
    rfl
  · rw [shapeCast_self]
    exact broadcastTo_1b_ab_apply _ _ r (0 : Fin 1)

/-! ## From the one block to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the one-point grid: every window takes its one block. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- What the one point writes back is the head of the arrays the region finds. -/
theorem flushed_eq (c : Dev nD) (t : Fin cfg3.N) :
    (dat3 V c).flushed 3 t = ((cfg3.win 3).blk t).view.read (Elt Ideal)
      (Spec.headArr (n := 512) (K := 256) (V c main_v59) (fun k => V c main_arg11 (ix2 (0 : Fin 1) k)) (V c main_v60 (ix2 (0 : Fin 1) (0 : Fin 1)))) := by
  show (cfg3.win 3).cut (grid3.coords t) ((dat3 V c).after 3 t) = _
  rw [after3_3]
  unfold out3_3
  rw [View.canon_unit_zero hz]
  simp only [View.ld_unit_zero (S := S512x256) hz, View.ld_unit_zero (S := S1x256) hz, View.ld_unit_zero (S := S1x1) hz]
  obtain ⟨e00, e01, e10, e11, e20, e21, e30, e31⟩ := idx_facts t
  refine funext fun (j : S512x1.Idx) => ?_
  obtain ⟨r, u, rfl⟩ : ∃ (r : Fin 512) (u : Fin 1), j = ix2 r u := ⟨j 0, j 1, eq_ix2 j⟩
  obtain rfl : u = 0 := Subsingleton.elim _ _
  show k3_pay1 (iblk3 V c 0 t) (iblk3 V c 1 t) (iblk3 V c 2 t) (ix2 r (0 : Fin 1))
    = Spec.headArr (n := 512) (K := 256) (V c main_v59) (fun k => V c main_arg11 (ix2 (0 : Fin 1) k)) (V c main_v60 (ix2 (0 : Fin 1) (0 : Fin 1)))
        (((cfg3.win 3).blk t).view.emb (ix2 r (0 : Fin 1)))
  refine (pay_at (iblk3 V c 0 t) (iblk3 V c 1 t) (iblk3 V c 2 t) r).trans ?_
  have e3 : ((cfg3.win 3).blk t).view.emb (ix2 r (0 : Fin 1)) = (ix2 r (0 : Fin 1) : S512x1.Idx) := by
    funext a; apply Fin.ext
    match a with
    | ⟨0, _⟩ => show win3_3.index t (0 : Fin 2) * 512 + 1 * r.val = r.val; omega
    | ⟨1, _⟩ => show win3_3.index t (1 : Fin 2) * 1 + 1 * 0 = 0; omega
  have e0 : ∀ k : Fin 256, iblk3 V c 0 t (ix2 r k) = V c main_v59 (ix2 r k : S512x256.Idx) := fun k => by
    show V c main_v59 (((cfg3.win 0).blk t).view.emb (ix2 r k)) = _
    refine congrArg (V c main_v59) ?_
    funext a; apply Fin.ext
    match a with
    | ⟨0, _⟩ => show win3_0.index t (0 : Fin 2) * 512 + 1 * r.val = r.val; omega
    | ⟨1, _⟩ => show win3_0.index t (1 : Fin 2) * 256 + 1 * k.val = k.val; omega
  have e1 : ∀ k : Fin 256, iblk3 V c 1 t (ix2 (0 : Fin 1) k) = V c main_arg11 (ix2 (0 : Fin 1) k : S1x256.Idx) := fun k => by
    show V c main_arg11 (((cfg3.win 1).blk t).view.emb (ix2 (0 : Fin 1) k)) = _
    refine congrArg (V c main_arg11) ?_
    funext a; apply Fin.ext
    match a with
    | ⟨0, _⟩ => show win3_1.index t (0 : Fin 2) * 1 + 1 * 0 = 0; omega
    | ⟨1, _⟩ => show win3_1.index t (1 : Fin 2) * 256 + 1 * k.val = k.val; omega
  have e2 : iblk3 V c 2 t (ix2 (0 : Fin 1) (0 : Fin 1)) = V c main_v60 (ix2 (0 : Fin 1) (0 : Fin 1) : S1x1.Idx) := by
    show V c main_v60 (((cfg3.win 2).blk t).view.emb (ix2 (0 : Fin 1) (0 : Fin 1))) = _
    refine congrArg (V c main_v60) ?_
    funext a; apply Fin.ext
    match a with
    | ⟨0, _⟩ => show win3_2.index t (0 : Fin 2) * 1 + 1 * 0 = 0; omega
    | ⟨1, _⟩ => show win3_2.index t (1 : Fin 2) * 1 + 1 * 0 = 0; omega
  rw [e3, e2, show (fun k => iblk3 V c 1 t (ix2 (0 : Fin 1) k)) = (fun k => V c main_arg11 (ix2 (0 : Fin 1) k : S1x256.Idx)) from funext e1]
  exact Spec.head_congr _ _ (fun k => e0 k)

/-- An index of the array is in the point's block iff each coordinate is in the block's range on its axis. -/
theorem mem_blk (t : Fin cfg3.N) (i : S512x1.Idx) :
    i ∈ ((cfg3.win 3).blk t).view.set ↔ ∀ a : Fin 2, win3_3.index t a * S512x1.size a ≤ (i a).val ∧ (i a).val < win3_3.index t a * S512x1.size a + S512x1.size a := by
  show i ∈ ((View.whole main_v61).slice (win3_3.rect t)).set ↔ _
  rw [View.set_slice_whole, Rect.mem_set_unit]
  exact Iff.rfl

/-- The one block is the whole array. -/
theorem cover (i : S512x1.Idx) : ∃ t : Fin cfg3.N, (cfg3.win 3).flush t = true ∧ i ∈ ((cfg3.win 3).blk t).view.set := by
  have hi0 : (i 0).val < 512 := (i 0).isLt
  have hi1 : (i 1).val < 1 := (i 1).isLt
  have hN : grid3.N = 1 := N_3
  have hlt : 0 < grid3.N := by omega
  obtain ⟨-, -, -, -, -, -, e30, e31⟩ := idx_facts ⟨0, hlt⟩
  refine ⟨⟨0, hlt⟩, flush3_3 _, ?_⟩
  rw [mem_blk]
  intro a
  match a with
  | ⟨0, _⟩ =>
    show win3_3.index ⟨0, hlt⟩ (0 : Fin 2) * 512 ≤ (i 0).val ∧ (i 0).val < win3_3.index ⟨0, hlt⟩ (0 : Fin 2) * 512 + 512
    omega
  | ⟨1, _⟩ =>
    show win3_3.index ⟨0, hlt⟩ (1 : Fin 2) * 1 ≤ (i 1).val ∧ (i 1).val < win3_3.index ⟨0, hlt⟩ (1 : Fin 2) * 1 + 1
    omega

/-- The array region 3 leaves: the head of the arrays it finds. -/
theorem final (c : Dev nD) :
    (dat3 V c).arrAt 3 cfg3.N
      = Spec.headArr (n := 512) (K := 256) (V c main_v59) (fun k => V c main_arg11 (ix2 (0 : Fin 1) k)) (V c main_v60 (ix2 (0 : Fin 1) (0 : Fin 1))) :=
  (dat3 V c).arrAt_eq_of_cover 3 _ (fun t _ => flushed_eq V c t) cover

end Cert.KernelIdeal.Head

end
-- ==== Proof.Fold.lean ====
/-
  The buffers that pass through @main untouched, read back through the fold of buffer contents: an argument, or the
  edge list's two rows (the sources and the targets, cut out of the edge array once, before the first region), holds
  at every later boundary what it held when it was written — a host stretch that does not write it leaves it, and so
  does a region that does not stage it. One line per buffer and boundary, each the same move. The three bias rows,
  reshaped to one row by the stretch before their region, are read the same way.
-/
import proofs.«176643_j58703613002017_2_alg».proof.Proof.Gen.KernelIdeal.Frame
import proofs.«176643_j58703613002017_2_alg».proof.Proof.Gen.ReferenceIdeal.Read
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first host stretch (from the launch memory) -/
theorem W1_main_arg0 (c : Dev nD) : W1 m ρ c (Proc.devRef .tc main_arg0) = m ((c : Thread nD τ).loc main_arg0) := by
  show StableHlo.after hostOps0 (W0 m ρ c) (Proc.devRef .tc main_arg0) = _
  after_results
theorem W1_main_arg3 (c : Dev nD) : W1 m ρ c (Proc.devRef .tc main_arg3) = m ((c : Thread nD τ).loc main_arg3) := by
  show StableHlo.after hostOps0 (W0 m ρ c) (Proc.devRef .tc main_arg3) = _
  after_results
theorem W1_main_arg2 (c : Dev nD) : W1 m ρ c (Proc.devRef .tc main_arg2) = m ((c : Thread nD τ).loc main_arg2) := by
  show StableHlo.after hostOps0 (W0 m ρ c) (Proc.devRef .tc main_arg2) = _
  after_results
theorem W1_main_arg5 (c : Dev nD) : W1 m ρ c (Proc.devRef .tc main_arg5) = m ((c : Thread nD τ).loc main_arg5) := by
  show StableHlo.after hostOps0 (W0 m ρ c) (Proc.devRef .tc main_arg5) = _
  after_results
theorem W1_main_arg6 (c : Dev nD) : W1 m ρ c (Proc.devRef .tc main_arg6) = m ((c : Thread nD τ).loc main_arg6) := by
  show StableHlo.after hostOps0 (W0 m ρ c) (Proc.devRef .tc main_arg6) = _
  after_results
theorem W1_main_arg7 (c : Dev nD) : W1 m ρ c (Proc.devRef .tc main_arg7) = m ((c : Thread nD τ).loc main_arg7) := by
  show StableHlo.after hostOps0 (W0 m ρ c) (Proc.devRef .tc main_arg7) = _
  after_results
theorem W1_main_arg8 (c : Dev nD) : W1 m ρ c (Proc.devRef .tc main_arg8) = m ((c : Thread nD τ).loc main_arg8) := by
  show StableHlo.after hostOps0 (W0 m ρ c) (Proc.devRef .tc main_arg8) = _
  after_results
theorem W1_main_arg9 (c : Dev nD) : W1 m ρ c (Proc.devRef .tc main_arg9) = m ((c : Thread nD τ).loc main_arg9) := by
  show StableHlo.after hostOps0 (W0 m ρ c) (Proc.devRef .tc main_arg9) = _
  after_results
theorem W1_main_arg10 (c : Dev nD) : W1 m ρ c (Proc.devRef .tc main_arg10) = m ((c : Thread nD τ).loc main_arg10) := by
  show StableHlo.after hostOps0 (W0 m ρ c) (Proc.devRef .tc main_arg10) = _
  after_results
theorem W1_main_arg11 (c : Dev nD) : W1 m ρ c (Proc.devRef .tc main_arg11) = m ((c : Thread nD τ).loc main_arg11) := by
  show StableHlo.after hostOps0 (W0 m ρ c) (Proc.devRef .tc main_arg11) = _
  after_results
theorem W1_main_arg12 (c : Dev nD) : W1 m ρ c (Proc.devRef .tc main_arg12) = m ((c : Thread nD τ).loc main_arg12) := by
  show StableHlo.after hostOps0 (W0 m ρ c) (Proc.devRef .tc main_arg12) = _
  after_results
theorem W1_main_v1 (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl
theorem W1_main_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl
/-- The first bias row, reshaped from `[128]` to `[1, 128]`. -/
theorem W1_main_v4 (c : Dev nD) : W1 m ρ c (Proc.devRef .tc main_v4) = shapeCast S1x128 (m ((c : Thread nD τ).loc main_arg4)) shapeCasts_S128_S1x128 := by
  show StableHlo.after hostOps0 (W0 m ρ c) (Proc.devRef .tc main_v4) = _
  after_results
  rfl

/-! ## After region 0 -/
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W2_main_arg6 (c : Dev nD) : W2 m ρ c (Proc.devRef .tc main_arg6) = m ((c : Thread nD τ).loc main_arg6) :=
  (W2_of_ne m ρ c main_arg6 (by decide)).trans (W1_main_arg6 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
theorem W2_main_arg8 (c : Dev nD) : W2 m ρ c (Proc.devRef .tc main_arg8) = m ((c : Thread nD τ).loc main_arg8) :=
  (W2_of_ne m ρ c main_arg8 (by decide)).trans (W1_main_arg8 m ρ c)
theorem W2_main_arg9 (c : Dev nD) : W2 m ρ c (Proc.devRef .tc main_arg9) = m ((c : Thread nD τ).loc main_arg9) :=
  (W2_of_ne m ρ c main_arg9 (by decide)).trans (W1_main_arg9 m ρ c)
theorem W2_main_arg10 (c : Dev nD) : W2 m ρ c (Proc.devRef .tc main_arg10) = m ((c : Thread nD τ).loc main_arg10) :=
  (W2_of_ne m ρ c main_arg10 (by decide)).trans (W1_main_arg10 m ρ c)
theorem W2_main_arg11 (c : Dev nD) : W2 m ρ c (Proc.devRef .tc main_arg11) = m ((c : Thread nD τ).loc main_arg11) :=
  (W2_of_ne m ρ c main_arg11 (by decide)).trans (W1_main_arg11 m ρ c)
theorem W2_main_arg12 (c : Dev nD) : W2 m ρ c (Proc.devRef .tc main_arg12) = m ((c : Thread nD τ).loc main_arg12) :=
  (W2_of_ne m ρ c main_arg12 (by decide)).trans (W1_main_arg12 m ρ c)
theorem W2_main_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (W1_main_v1 m ρ c)
theorem W2_main_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (W1_main_v3 m ρ c)

/-! ## After host stretch 1 -/
theorem W3_main_arg2 (c : Dev nD) : W3 m ρ c (Proc.devRef .tc main_arg2) = m ((c : Thread nD τ).loc main_arg2) :=
  (show StableHlo.after hostOps1 (W2 m ρ c) (Proc.devRef .tc main_arg2) = W2 m ρ c (Proc.devRef .tc main_arg2) by after_results).trans (W2_main_arg2 m ρ c)
theorem W3_main_arg5 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) by after_results).trans (W2_main_arg5 m ρ c)
theorem W3_main_arg7 (c : Dev nD) : W3 m ρ c (Proc.devRef .tc main_arg7) = m ((c : Thread nD τ).loc main_arg7) :=
  (show StableHlo.after hostOps1 (W2 m ρ c) (Proc.devRef .tc main_arg7) = W2 m ρ c (Proc.devRef .tc main_arg7) by after_results).trans (W2_main_arg7 m ρ c)
theorem W3_main_arg8 (c : Dev nD) : W3 m ρ c (Proc.devRef .tc main_arg8) = m ((c : Thread nD τ).loc main_arg8) :=
  (show StableHlo.after hostOps1 (W2 m ρ c) (Proc.devRef .tc main_arg8) = W2 m ρ c (Proc.devRef .tc main_arg8) by after_results).trans (W2_main_arg8 m ρ c)
theorem W3_main_arg9 (c : Dev nD) : W3 m ρ c (Proc.devRef .tc main_arg9) = m ((c : Thread nD τ).loc main_arg9) :=
  (show StableHlo.after hostOps1 (W2 m ρ c) (Proc.devRef .tc main_arg9) = W2 m ρ c (Proc.devRef .tc main_arg9) by after_results).trans (W2_main_arg9 m ρ c)
theorem W3_main_arg10 (c : Dev nD) : W3 m ρ c (Proc.devRef .tc main_arg10) = m ((c : Thread nD τ).loc main_arg10) :=
  (show StableHlo.after hostOps1 (W2 m ρ c) (Proc.devRef .tc main_arg10) = W2 m ρ c (Proc.devRef .tc main_arg10) by after_results).trans (W2_main_arg10 m ρ c)
theorem W3_main_arg11 (c : Dev nD) : W3 m ρ c (Proc.devRef .tc main_arg11) = m ((c : Thread nD τ).loc main_arg11) :=
  (show StableHlo.after hostOps1 (W2 m ρ c) (Proc.devRef .tc main_arg11) = W2 m ρ c (Proc.devRef .tc main_arg11) by after_results).trans (W2_main_arg11 m ρ c)
theorem W3_main_arg12 (c : Dev nD) : W3 m ρ c (Proc.devRef .tc main_arg12) = m ((c : Thread nD τ).loc main_arg12) :=
  (show StableHlo.after hostOps1 (W2 m ρ c) (Proc.devRef .tc main_arg12) = W2 m ρ c (Proc.devRef .tc main_arg12) by after_results).trans (W2_main_arg12 m ρ c)
theorem W3_main_v1 (c : Dev nD) : W3 m ρ c (Proc.devRef .tc main_v1) = Cert.ReferenceIdeal.Read.val_main_v1 (F := Ideal) (m ((c : Thread nD τ).loc main_arg1)) :=
  (show StableHlo.after hostOps1 (W2 m ρ c) (Proc.devRef .tc main_v1) = W2 m ρ c (Proc.devRef .tc main_v1) by after_results).trans (W2_main_v1 m ρ c)
theorem W3_main_v3 (c : Dev nD) : W3 m ρ c (Proc.devRef .tc main_v3) = Cert.ReferenceIdeal.Read.val_main_v3 (F := Ideal) (m ((c : Thread nD τ).loc main_arg1)) :=
  (show StableHlo.after hostOps1 (W2 m ρ c) (Proc.devRef .tc main_v3) = W2 m ρ c (Proc.devRef .tc main_v3) by after_results).trans (W2_main_v3 m ρ c)
/-- The second bias row, reshaped from `[128]` to `[1, 128]`. -/
theorem W3_main_v25 (c : Dev nD) : W3 m ρ c (Proc.devRef .tc main_v25) = shapeCast S1x128 (m ((c : Thread nD τ).loc main_arg6)) shapeCasts_S128_S1x128 := by
  show StableHlo.after hostOps1 (W2 m ρ c) (Proc.devRef .tc main_v25) = _
  after_results
  rw [W2_main_arg6 m ρ c]
  rfl

/-! ## After region 1 -/
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W4_main_arg10 (c : Dev nD) : W4 m ρ c (Proc.devRef .tc main_arg10) = m ((c : Thread nD τ).loc main_arg10) :=
  (W4_of_ne m ρ c main_arg10 (by decide)).trans (W3_main_arg10 m ρ c)
theorem W4_main_arg11 (c : Dev nD) : W4 m ρ c (Proc.devRef .tc main_arg11) = m ((c : Thread nD τ).loc main_arg11) :=
  (W4_of_ne m ρ c main_arg11 (by decide)).trans (W3_main_arg11 m ρ c)
theorem W4_main_arg12 (c : Dev nD) : W4 m ρ c (Proc.devRef .tc main_arg12) = m ((c : Thread nD τ).loc main_arg12) :=
  (W4_of_ne m ρ c main_arg12 (by decide)).trans (W3_main_arg12 m ρ c)
theorem W4_main_v1 (c : Dev nD) : W4 m ρ c (Proc.devRef .tc main_v1) = Cert.ReferenceIdeal.Read.val_main_v1 (F := Ideal) (m ((c : Thread nD τ).loc main_arg1)) :=
  (W4_of_ne m ρ c main_v1 (by decide)).trans (W3_main_v1 m ρ c)
theorem W4_main_v3 (c : Dev nD) : W4 m ρ c (Proc.devRef .tc main_v3) = Cert.ReferenceIdeal.Read.val_main_v3 (F := Ideal) (m ((c : Thread nD τ).loc main_arg1)) :=
  (W4_of_ne m ρ c main_v3 (by decide)).trans (W3_main_v3 m ρ c)

/-! ## After host stretch 2 -/
theorem W5_main_arg2 (c : Dev nD) : W5 m ρ c (Proc.devRef .tc main_arg2) = m ((c : Thread nD τ).loc main_arg2) :=
  (show StableHlo.after hostOps2 (W4 m ρ c) (Proc.devRef .tc main_arg2) = W4 m ρ c (Proc.devRef .tc main_arg2) by after_results).trans (W4_main_arg2 m ρ c)
theorem W5_main_arg8 (c : Dev nD) : W5 m ρ c (Proc.devRef .tc main_arg8) = m ((c : Thread nD τ).loc main_arg8) :=
  (show StableHlo.after hostOps2 (W4 m ρ c) (Proc.devRef .tc main_arg8) = W4 m ρ c (Proc.devRef .tc main_arg8) by after_results).trans (W4_main_arg8 m ρ c)
theorem W5_main_arg10 (c : Dev nD) : W5 m ρ c (Proc.devRef .tc main_arg10) = m ((c : Thread nD τ).loc main_arg10) :=
  (show StableHlo.after hostOps2 (W4 m ρ c) (Proc.devRef .tc main_arg10) = W4 m ρ c (Proc.devRef .tc main_arg10) by after_results).trans (W4_main_arg10 m ρ c)
theorem W5_main_arg11 (c : Dev nD) : W5 m ρ c (Proc.devRef .tc main_arg11) = m ((c : Thread nD τ).loc main_arg11) :=
  (show StableHlo.after hostOps2 (W4 m ρ c) (Proc.devRef .tc main_arg11) = W4 m ρ c (Proc.devRef .tc main_arg11) by after_results).trans (W4_main_arg11 m ρ c)
theorem W5_main_arg12 (c : Dev nD) : W5 m ρ c (Proc.devRef .tc main_arg12) = m ((c : Thread nD τ).loc main_arg12) :=
  (show StableHlo.after hostOps2 (W4 m ρ c) (Proc.devRef .tc main_arg12) = W4 m ρ c (Proc.devRef .tc main_arg12) by after_results).trans (W4_main_arg12 m ρ c)
/-- The third bias row, reshaped from `[256]` to `[1, 256]`. -/
theorem W5_main_v46 (c : Dev nD) : W5 m ρ c (Proc.devRef .tc main_v46) = shapeCast S1x256 (m ((c : Thread nD τ).loc main_arg9)) shapeCasts_S256_S1x256 := by
  show StableHlo.after hostOps2 (W4 m ρ c) (Proc.devRef .tc main_v46) = _
  after_results
  rw [W4_main_arg9 m ρ c]
  rfl

/-! ## After region 2 -/
theorem W6_main_arg2 (c : Dev nD) : W6 m ρ c (Proc.devRef .tc main_arg2) = m ((c : Thread nD τ).loc main_arg2) :=
  (W6_of_ne m ρ c main_arg2 (by decide)).trans (W5_main_arg2 m ρ c)
theorem W6_main_arg11 (c : Dev nD) : W6 m ρ c (Proc.devRef .tc main_arg11) = m ((c : Thread nD τ).loc main_arg11) :=
  (W6_of_ne m ρ c main_arg11 (by decide)).trans (W5_main_arg11 m ρ c)
theorem W6_main_arg12 (c : Dev nD) : W6 m ρ c (Proc.devRef .tc main_arg12) = m ((c : Thread nD τ).loc main_arg12) :=
  (W6_of_ne m ρ c main_arg12 (by decide)).trans (W5_main_arg12 m ρ c)

/-! ## After host stretch 3 -/
theorem W7_main_arg11 (c : Dev nD) : W7 m ρ c (Proc.devRef .tc main_arg11) = m ((c : Thread nD τ).loc main_arg11) :=
  (show StableHlo.after hostOps3 (W6 m ρ c) (Proc.devRef .tc main_arg11) = W6 m ρ c (Proc.devRef .tc main_arg11) by after_results).trans (W6_main_arg11 m ρ c)
/-- The head's bias, reshaped from `[1]` to `[1, 1]`. -/
theorem W7_main_v60 (c : Dev nD) : W7 m ρ c (Proc.devRef .tc main_v60) = shapeCast S1x1 (m ((c : Thread nD τ).loc main_arg12)) shapeCasts_S1_S1x1 := by
  show StableHlo.after hostOps3 (W6 m ρ c) (Proc.devRef .tc main_v60) = _
  after_results
  rw [W6_main_arg12 m ρ c]
  rfl

end Cert.KernelIdeal.Fold

end
-- ==== Proof.Bridge.lean ====
/-
  The idealized kernel's result as a function of its arguments: the fold of buffer contents through @main, read
  boundary by boundary, every intermediate array named by the reference's own stage of the same arguments.

  A region's output array is the specification function of the arrays it finds (the region modules); the reference's
  dense stage is the same specification function of its operands (the hypothesis `StagesHold`, proved beside the
  reference's read-back); and a stretch of host operations between two regions — the edge gather, the two
  scatter-adds, the degree clamp and the division, or the pooling by graph — is, operation for operation, the
  reference's stretch, so once its input array is the reference's stage its output is the reference's next stage,
  with nothing about gathers or scatters opened.
-/
import proofs.«176643_j58703613002017_2_alg».proof.Proof.KernelRun
import proofs.«176643_j58703613002017_2_alg».proof.Proof.Dense
import proofs.«176643_j58703613002017_2_alg».proof.Proof.Conv1
import proofs.«176643_j58703613002017_2_alg».proof.Proof.Conv2
import proofs.«176643_j58703613002017_2_alg».proof.Proof.Head
import proofs.«176643_j58703613002017_2_alg».proof.Proof.Fold

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read (val_main_v1 val_main_v3 val_main_v8 val_main_v27 val_main_v41 val_main_v60 val_main_v73 val_main_v85 val_main_v96)

/-- The reference's four dense stages are the specification functions of their operands: the projection, the two
    convolution steps (the first with the rectifier) and the head, each of the stage before it (the aggregated and
    pooled arrays in between are whatever the host stretches make of them). -/
structure StagesHold : Prop where
  h0 : ∀ (x0 : (⟨Cert.ReferenceIdeal.S50000x128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)),
    val_main_v8 (F := Ideal) x0 x3 x4 = Cert.Spec.affineArr (n := 50000) (K := 128) (M := 128) x0 x3 (Cert.Spec.at1 x4)
  h1 : ∀ (x0 : (⟨Cert.ReferenceIdeal.S50000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)),
    val_main_v41 (F := Ideal) x0 x1 x3 x4 x5 x6 x7
      = Cert.Spec.convReluArr (n := 50000) (K := 128) (M := 128) (val_main_v27 (F := Ideal) x0 x1 x3 x4) (val_main_v8 (F := Ideal) x0 x3 x4) x5 (Cert.Spec.at1 x6) x7
  h2 : ∀ (x0 : (⟨Cert.ReferenceIdeal.S50000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S256x128, .f32⟩ : BufTy).Contents (Elt Ideal)) (x9 : (⟨Cert.ReferenceIdeal.S256, .f32⟩ : BufTy).Contents (Elt Ideal)) (x10 : (⟨Cert.ReferenceIdeal.S256x128, .f32⟩ : BufTy).Contents (Elt Ideal)),
    val_main_v73 (F := Ideal) x0 x1 x3 x4 x5 x6 x7 x8 x9 x10
      = Cert.Spec.convArr (n := 50000) (K := 128) (M := 256) (val_main_v60 (F := Ideal) x0 x1 x3 x4 x5 x6 x7) (val_main_v41 (F := Ideal) x0 x1 x3 x4 x5 x6 x7) x8 (Cert.Spec.at1 x9) x10
  out : ∀ (x0 : (⟨Cert.ReferenceIdeal.S50000x128, .f32⟩ : BufTy).Contents (Elt Ideal)) (x1 : (⟨Cert.ReferenceIdeal.S2x1600000, .i32⟩ : BufTy).Contents (Elt Ideal)) (x2 : (⟨Cert.ReferenceIdeal.S50000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S256x128, .f32⟩ : BufTy).Contents (Elt Ideal)) (x9 : (⟨Cert.ReferenceIdeal.S256, .f32⟩ : BufTy).Contents (Elt Ideal)) (x10 : (⟨Cert.ReferenceIdeal.S256x128, .f32⟩ : BufTy).Contents (Elt Ideal)) (x11 : (⟨Cert.ReferenceIdeal.S1x256, .f32⟩ : BufTy).Contents (Elt Ideal)) (x12 : (⟨Cert.ReferenceIdeal.S1, .f32⟩ : BufTy).Contents (Elt Ideal)),
    val_main_v96 (F := Ideal) x0 x1 x2 x3 x4 x5 x6 x7 x8 x9 x10 x11 x12
      = Cert.Spec.headArr (n := 512) (K := 256) (val_main_v85 (F := Ideal) x0 x1 x2 x3 x4 x5 x6 x7 x8 x9 x10) (fun k => x11 (ix2 (0 : Fin 1) k)) (x12 (ix1 (0 : Fin 1)))

variable (S : StagesHold)
variable (m : (ℓ : Loc nD τ sig) → Buf (Elt Ideal) ℓ) (ρ : Dev nD → PrngReg)
include S

/-- After region 0 the projected array is the reference's first stage. -/
theorem h0 (c : Dev nD) : W2 m ρ c (Proc.devRef .tc main_v5) = val_main_v8 (F := Ideal) (m ((c : Thread nD τ).loc main_arg0)) (m ((c : Thread nD τ).loc main_arg3)) (m ((c : Thread nD τ).loc main_arg4)) := by
  refine (W2_arr m ρ c 3).trans ((Dense.final (V1 m ρ) c).trans ?_)
  show Cert.Spec.affineArr (n := 50000) (K := 128) (M := 128) (W1 m ρ c (Proc.devRef .tc main_arg0)) (W1 m ρ c (Proc.devRef .tc main_arg3))
    (fun j => W1 m ρ c (Proc.devRef .tc main_v4) (ix2 (0 : Fin 1) j)) = _
  rw [Fold.W1_main_arg0 m ρ c, Fold.W1_main_arg3 m ρ c, Fold.W1_main_v4 m ρ c, S.h0]
  refine congrArg (Cert.Spec.affineArr _ _) (funext fun j => ?_)
  exact shapeCast_a_1a_apply _ _ 0 j

/-- The first host stretch between regions (gather along the sources, scatter-add to the targets, divide by the
    clamped in-degree) makes of it the reference's first aggregated array. -/
theorem aggr1 (c : Dev nD) : W3 m ρ c (Proc.devRef .tc main_v24) = val_main_v27 (F := Ideal) (m ((c : Thread nD τ).loc main_arg0)) (m ((c : Thread nD τ).loc main_arg1)) (m ((c : Thread nD τ).loc main_arg3)) (m ((c : Thread nD τ).loc main_arg4)) := by
  show StableHlo.after hostOps1 (W2 m ρ c) (Proc.devRef .tc main_v24) = _
  after_results_simp
  rw [h0 S m ρ c, Fold.W2_main_v1 m ρ c, Fold.W2_main_v3 m ρ c]
  rfl

/-- The projected array is still there after that stretch. -/
theorem h0' (c : Dev nD) : W3 m ρ c (Proc.devRef .tc main_v5) = val_main_v8 (F := Ideal) (m ((c : Thread nD τ).loc main_arg0)) (m ((c : Thread nD τ).loc main_arg3)) (m ((c : Thread nD τ).loc main_arg4)) :=
  (show StableHlo.after hostOps1 (W2 m ρ c) (Proc.devRef .tc main_v5) = W2 m ρ c (Proc.devRef .tc main_v5) by after_results).trans (h0 S m ρ c)

/-- After region 1: the reference's first convolution stage. -/
theorem h1 (c : Dev nD) : W4 m ρ c (Proc.devRef .tc main_v26) = val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Conv1.final (V3 m ρ) c).trans ?_)
  show Cert.Spec.convReluArr (n := 50000) (K := 128) (M := 128) (W3 m ρ c (Proc.devRef .tc main_v24)) (W3 m ρ c (Proc.devRef .tc main_v5))
    (W3 m ρ c (Proc.devRef .tc main_arg5)) (fun j => W3 m ρ c (Proc.devRef .tc main_v25) (ix2 (0 : Fin 1) j)) (W3 m ρ c (Proc.devRef .tc main_arg7)) = _
  rw [aggr1 S m ρ c, h0' S m ρ c, Fold.W3_main_arg5 m ρ c, Fold.W3_main_v25 m ρ c, Fold.W3_main_arg7 m ρ c, S.h1]
  refine congrArg (fun b => Cert.Spec.convReluArr _ _ _ b _) (funext fun j => ?_)
  exact shapeCast_a_1a_apply _ _ 0 j

/-- The second stretch of the same host operations: the reference's second aggregated array. -/
theorem aggr2 (c : Dev nD) : W5 m ρ c (Proc.devRef .tc main_v45) = val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v45) = _
  after_results_simp
  rw [h1 S m ρ c, Fold.W4_main_v1 m ρ c, Fold.W4_main_v3 m ρ c]
  rfl

theorem h1' (c : Dev nD) : W5 m ρ c (Proc.devRef .tc main_v26) = val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (show StableHlo.after hostOps2 (W4 m ρ c) (Proc.devRef .tc main_v26) = W4 m ρ c (Proc.devRef .tc main_v26) by after_results).trans (h1 S m ρ c)

/-- After region 2: the reference's second convolution stage. -/
theorem h2 (c : Dev nD) : W6 m ρ c (Proc.devRef .tc main_v47) = val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ((Conv2.final (V5 m ρ) c).trans ?_)
  show Cert.Spec.convArr (n := 50000) (K := 128) (M := 256) (W5 m ρ c (Proc.devRef .tc main_v45)) (W5 m ρ c (Proc.devRef .tc main_v26))
    (W5 m ρ c (Proc.devRef .tc main_arg8)) (fun j => W5 m ρ c (Proc.devRef .tc main_v46) (ix2 (0 : Fin 1) j)) (W5 m ρ c (Proc.devRef .tc main_arg10)) = _
  rw [aggr2 S m ρ c, h1' S m ρ c, Fold.W5_main_arg8 m ρ c, Fold.W5_main_v46 m ρ c, Fold.W5_main_arg10 m ρ c, S.h2]
  refine congrArg (fun b => Cert.Spec.convArr _ _ _ b _) (funext fun j => ?_)
  exact shapeCast_a_1a_apply _ _ 0 j

/-- The pooling stretch (scatter-add by graph, divide by the clamped graph size): the reference's pooled array. -/
theorem pooled (c : Dev nD) : W7 m ρ c (Proc.devRef .tc main_v59) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 (W6 m ρ c) (Proc.devRef .tc main_v59) = _
  after_results_simp
  rw [h2 S m ρ c, Fold.W6_main_arg2 m ρ c]
  rfl

/-- After region 3: the reference's result. -/
theorem result (c : Dev nD) : W8 m ρ c (Proc.devRef .tc main_v61) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 3).trans ((Head.final (V7 m ρ) c).trans ?_)
  show Cert.Spec.headArr (n := 512) (K := 256) (W7 m ρ c (Proc.devRef .tc main_v59)) (fun k => W7 m ρ c (Proc.devRef .tc main_arg11) (ix2 (0 : Fin 1) k))
    (W7 m ρ c (Proc.devRef .tc main_v60) (ix2 (0 : Fin 1) (0 : Fin 1))) = _
  rw [pooled S m ρ c, Fold.W7_main_arg11 m ρ c, Fold.W7_main_v60 m ρ c, S.out]
  refine congrArg (Cert.Spec.headArr _ _) ?_
  exact shapeCast_a_1a_apply _ _ 0 0

end Cert.Bridge

end
-- ==== Proof.RefStages.lean ====
/-
  The reference program's first two dense stages — the input layer and the first convolution — each identified with
  the function of the specification module (the second convolution and the head are read the same way in their own modules).

  Every stage is read entry by entry. An entry of a product with a transposed weight matrix is the sum over `k` of the
  left factor at `(r, k)` times the weight at `(j, k)`: the transpose turns the product's weight index `(k, j)` into the
  argument's `(j, k)`, which is why the specification contracts a weight along its second axis. A bias row is read at the
  column. A row's length is the square root of the sum of its entries' squares, a sum that starts from the zero word,
  whose value is `0`. The aggregated neighbour arrays are never opened: they enter only as arrays read at an index.
-/
import proofs.«176643_j58703613002017_2_alg».proof.Proof.Gen.ReferenceIdeal.Read
import proofs.«176643_j58703613002017_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.Read Idealize.ShloMosaic Idealize.ShloMosaic.ValueIdx

/-! ## The input layer -/

/-- Entry `(r, j)` of the input layer: row `r` of `x0` against row `j` of `x3`, plus the bias at `j`. -/
theorem h0_at (x0 : (⟨S50000x128, .f32⟩ : BufTy).Contents (Elt Ideal)) (x3 : (⟨S128x128, .f32⟩ : BufTy).Contents (Elt Ideal)) (x4 : (⟨S128, .f32⟩ : BufTy).Contents (Elt Ideal)) (r : Fin 50000) (j : Fin 128) :
    val_main_v8 (F := Ideal) x0 x3 x4 (ix2 r j) = (∑ k : Fin 128, x0 (ix2 r k) * x3 (ix2 j k)) + x4 (ix1 j) := by
  have el : ∀ k : Fin 128, lidx_main_v5 (ix2 r j) k = ix2 r k := fun k =>
    funext fun a => Fin.ext (by match a with | ⟨0, _⟩ => rfl | ⟨1, _⟩ => rfl)
  have er : ∀ k : Fin 128, idx_main_v4 (ridx_main_v5 (ix2 r j) k) = ix2 j k := fun k =>
    funext fun a => Fin.ext (by match a with | ⟨0, _⟩ => rfl | ⟨1, _⟩ => rfl)
  have eb : idx_main_v6 (idx_main_v7 (ix2 r j)) = ix1 j :=
    funext fun a => Fin.ext (by match a with | ⟨0, _⟩ => rfl)
  rw [val_main_v8_apply, val_main_v5_apply, val_main_v7_apply, val_main_v6_apply, Ideal.addf_def, eb]
  simp only [val_main_v4_apply, el, er]

theorem h0_eq (x0 : (⟨S50000x128, .f32⟩ : BufTy).Contents (Elt Ideal)) (x3 : (⟨S128x128, .f32⟩ : BufTy).Contents (Elt Ideal)) (x4 : (⟨S128, .f32⟩ : BufTy).Contents (Elt Ideal)) :
    val_main_v8 (F := Ideal) x0 x3 x4 = Cert.Spec.affineArr (n := 50000) (K := 128) (M := 128) x0 x3 (Cert.Spec.at1 x4) := by
  funext i
  obtain ⟨r, j, rfl⟩ : ∃ (r : Fin 50000) (j : Fin 128), i = ix2 r j := ⟨i 0, i 1, eq_ix2 i⟩
  rw [h0_at]
  rfl

/-! ## The first convolution -/

/-- Entry `(r, j)` of the first convolution before it is scaled: the aggregated neighbours against `x5`, the bias
    `x6`, and the node's own features against `x7`. -/
theorem pre1_at (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (r : Fin 50000) (j : Fin 128) :
    val_main_v35 (F := Ideal) x0 x1 x3 x4 x5 x6 x7 (ix2 r j)
      = (∑ k : Fin 128, val_main_v27 (F := Ideal) x0 x1 x3 x4 (ix2 r k) * x5 (ix2 j k)) + x6 (ix1 j)
          + ∑ k : Fin 128, val_main_v8 (F := Ideal) x0 x3 x4 (ix2 r k) * x7 (ix2 j k) := by
  have el1 : ∀ k : Fin 128, lidx_main_v29 (ix2 r j) k = ix2 r k := fun k => funext fun a => Fin.ext (by match a with | ⟨0, _⟩ => rfl | ⟨1, _⟩ => rfl)
  have er1 : ∀ k : Fin 128, idx_main_v28 (ridx_main_v29 (ix2 r j) k) = ix2 j k := fun k => funext fun a => Fin.ext (by match a with | ⟨0, _⟩ => rfl | ⟨1, _⟩ => rfl)
  have eb : idx_main_v30 (idx_main_v31 (ix2 r j)) = ix1 j := funext fun a => Fin.ext (by match a with | ⟨0, _⟩ => rfl)
  have el2 : ∀ k : Fin 128, lidx_main_v34 (ix2 r j) k = ix2 r k := fun k => funext fun a => Fin.ext (by match a with | ⟨0, _⟩ => rfl | ⟨1, _⟩ => rfl)
  have er2 : ∀ k : Fin 128, idx_main_v33 (ridx_main_v34 (ix2 r j) k) = ix2 j k := fun k => funext fun a => Fin.ext (by match a with | ⟨0, _⟩ => rfl | ⟨1, _⟩ => rfl)
  rw [val_main_v35_apply, val_main_v32_apply, val_main_v29_apply, val_main_v31_apply, val_main_v30_apply,
    val_main_v34_apply, eb]
  simp only [Ideal.addf_def, val_main_v28_apply, val_main_v33_apply, el1, er1, el2, er2]

/-- The clamped length of row `r` of the first convolution: the square root of the sum of the row's squares, and the
    clamp word below it. -/
theorem norm1_at (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (r : Fin 50000) :
    val_main_v38 (F := Ideal) x0 x1 x3 x4 x5 x6 x7 (ix2 r (0 : Fin 1))
      = max (Ideal.sqrt (∑ j' : Fin 128, val_main_v35 (F := Ideal) x0 x1 x3 x4 x5 x6 x7 (ix2 r j')
              * val_main_v35 (F := Ideal) x0 x1 x3 x4 x5 x6 x7 (ix2 r j')))
          (Ideal.ofBits .f32 0x2B8CBCCC#32) := by
  have e : ∀ k : Fin 128, idx_main_call0_v1 (idx_main_call0_v2 (ix2 r (0 : Fin 1))) k = ix2 r k := fun k => funext fun a => Fin.ext (by match a with | ⟨0, _⟩ => rfl | ⟨1, _⟩ => rfl)
  rw [val_main_v38_apply, val_main_v36_apply, val_main_call0_v2_apply, val_main_call0_v1_apply,
    val_main_call0_cst_apply, val_main_v37_apply, val_main_cst_4_apply]
  rw [Ideal.maximumf_def, Ideal.hostUnary_sqrt_def, Ideal.ofBits_def, Ideal.ofBits_def, Ideal.ofBits_zero_f32, zero_add]
  refine congrArg (fun s => max (Ideal.sqrt s) (Ideal.ofBits .f32 0x2B8CBCCC#32)) (Finset.sum_congr rfl fun k _ => ?_)
  rw [val_main_call0_v0_apply, Ideal.mulf_def, e]

/-- Entry `(r, j)` of the first convolution: the entry before scaling over the row's clamped length, and the
    rectifier's threshold word below the quotient. -/
theorem h1_at (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (r : Fin 50000) (j : Fin 128) :
    val_main_v41 (F := Ideal) x0 x1 x3 x4 x5 x6 x7 (ix2 r j)
      = max (Ideal.div (val_main_v35 (F := Ideal) x0 x1 x3 x4 x5 x6 x7 (ix2 r j))
              (val_main_v38 (F := Ideal) x0 x1 x3 x4 x5 x6 x7 (ix2 r (0 : Fin 1))))
          (Ideal.ofBits .f32 0x00000000#32) := by
  have e : idx_main_v39 (ix2 r j) = ix2 r (0 : Fin 1) := funext fun a => Fin.ext (by match a with | ⟨0, _⟩ => rfl | ⟨1, _⟩ => rfl)
  rw [val_main_v41_apply, val_main_v40_apply, val_main_v39_apply, val_main_call1_v0_apply, val_main_call1_cst_apply, e,
    Ideal.maximumf_def, Ideal.hostDivf_def, Ideal.ofBits_def]

theorem h1_eq (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v41 (F := Ideal) x0 x1 x3 x4 x5 x6 x7
      = Cert.Spec.convReluArr (n := 50000) (K := 128) (M := 128) (val_main_v27 (F := Ideal) x0 x1 x3 x4)
          (val_main_v8 (F := Ideal) x0 x3 x4) x5 (Cert.Spec.at1 x6) x7 := by
  funext i
  obtain ⟨r, j, rfl⟩ : ∃ (r : Fin 50000) (j : Fin 128), i = ix2 r j := ⟨i 0, i 1, eq_ix2 i⟩
  rw [h1_at, norm1_at]
  simp only [pre1_at]
  rfl

end Cert.ReferenceIdeal.Stages

end
-- ==== Proof.RefConv2.lean ====
/-
  The reference's second convolution stage is the specification's `conv` of the second aggregated array and the
  first stage's output. Each weight matrix is transposed and contracted along its first axis, which at `(r, j)` is
  the sum over `k` of the row's entry times the weight's entry `(j, k)`; the bias is broadcast along the rows; the
  row's length is the square root of the host sum of squares from the zero word (which adds nothing), kept as a
  column, clamped below by the word nearest `1e-12` and broadcast back along the row.
-/
import proofs.«176643_j58703613002017_2_alg».proof.Proof.Gen.ReferenceIdeal.Read
import proofs.«176643_j58703613002017_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.StagesConv2

open Cert.ReferenceIdeal Cert.ReferenceIdeal.Gen Cert.ReferenceIdeal.Read
open Idealize.ShloMosaic Idealize.ShloMosaic.ValueIdx

/-- The stage before scaling, at entry `(r, j)`. -/
theorem pre_at (x0 : (⟨Cert.ReferenceIdeal.S50000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S256x128, .f32⟩ : BufTy).Contents (Elt Ideal)) (x9 : (⟨Cert.ReferenceIdeal.S256, .f32⟩ : BufTy).Contents (Elt Ideal)) (x10 : (⟨Cert.ReferenceIdeal.S256x128, .f32⟩ : BufTy).Contents (Elt Ideal)) (r : Fin 50000) (j : Fin 256) :
    val_main_v68 (F := Ideal) x0 x1 x3 x4 x5 x6 x7 x8 x9 x10 (ix2 r j) = Cert.Spec.pre (K := 128) (M := 256) (Cert.Spec.at2 (n0 := 50000) (n1 := 128) (val_main_v60 (F := Ideal) x0 x1 x3 x4 x5 x6 x7)) (Cert.Spec.at2 (n0 := 50000) (n1 := 128) (val_main_v41 (F := Ideal) x0 x1 x3 x4 x5 x6 x7)) (Cert.Spec.at2 (n0 := 256) (n1 := 128) x8) (Cert.Spec.at1 (n0 := 256) x9) (Cert.Spec.at2 (n0 := 256) (n1 := 128) x10) r j := by
  rw [val_main_v68_apply, val_main_v65_apply, val_main_v62_apply, val_main_v64_apply, val_main_v63_apply, val_main_v67_apply]
  generalize val_main_v60 (F := Ideal) x0 x1 x3 x4 x5 x6 x7 = A
  generalize val_main_v41 (F := Ideal) x0 x1 x3 x4 x5 x6 x7 = H
  have el : ∀ k : Fin 128, lidx_main_v62 (ix2 r j) k = ix2 r k := fun k =>
    funext fun a => Fin.ext (by match a with | ⟨0, _⟩ => rfl | ⟨1, _⟩ => rfl)
  have er : ∀ k : Fin 128, idx_main_v61 (ridx_main_v62 (ix2 r j) k) = ix2 j k := fun k =>
    funext fun a => Fin.ext (by match a with | ⟨0, _⟩ => rfl | ⟨1, _⟩ => rfl)
  have el' : ∀ k : Fin 128, lidx_main_v67 (ix2 r j) k = ix2 r k := fun k =>
    funext fun a => Fin.ext (by match a with | ⟨0, _⟩ => rfl | ⟨1, _⟩ => rfl)
  have er' : ∀ k : Fin 128, idx_main_v66 (ridx_main_v67 (ix2 r j) k) = ix2 j k := fun k =>
    funext fun a => Fin.ext (by match a with | ⟨0, _⟩ => rfl | ⟨1, _⟩ => rfl)
  have eb : idx_main_v63 (idx_main_v64 (ix2 r j)) = ix1 j :=
    funext fun a => Fin.ext (by match a with | ⟨0, _⟩ => rfl)
  show (∑ k : Fin 128, A (lidx_main_v62 (ix2 r j) k) * val_main_v61 (F := Ideal) x8 (ridx_main_v62 (ix2 r j) k))
      + x9 (idx_main_v63 (idx_main_v64 (ix2 r j)))
      + (∑ k : Fin 128, H (lidx_main_v67 (ix2 r j) k) * val_main_v66 (F := Ideal) x10 (ridx_main_v67 (ix2 r j) k))
    = (∑ k : Fin 128, A (ix2 r k) * x8 (ix2 j k)) + x9 (ix1 j) + ∑ k : Fin 128, H (ix2 r k) * x10 (ix2 j k)
  rw [eb]
  refine congrArg₂ (· + ·) (congrArg (· + x9 (ix1 j)) (Finset.sum_congr rfl fun k _ => ?_)) (Finset.sum_congr rfl fun k _ => ?_)
  · rw [val_main_v61_apply, el k, er k]
  · rw [val_main_v66_apply, el' k, er' k]

/-- The specification's scaled step at an entry, spelt out. -/
theorem convArr_apply {n K M : ℕ} (A H : (⟨2, ![n, K]⟩ : Shape).Idx → EReal) (Wl : (⟨2, ![M, K]⟩ : Shape).Idx → EReal) (bl : Fin M → EReal)
    (Wr : (⟨2, ![M, K]⟩ : Shape).Idx → EReal) (r : Fin n) (j : Fin M) :
    Cert.Spec.convArr A H Wl bl Wr (ix2 r j)
      = Ideal.div (Cert.Spec.pre (Cert.Spec.at2 A) (Cert.Spec.at2 H) (Cert.Spec.at2 Wl) bl (Cert.Spec.at2 Wr) r j)
          (max (Ideal.sqrt (∑ j' : Fin M, Cert.Spec.pre (Cert.Spec.at2 A) (Cert.Spec.at2 H) (Cert.Spec.at2 Wl) bl (Cert.Spec.at2 Wr) r j'
            * Cert.Spec.pre (Cert.Spec.at2 A) (Cert.Spec.at2 H) (Cert.Spec.at2 Wl) bl (Cert.Spec.at2 Wr) r j')) Cert.Spec.eps) := rfl

theorem h2_eq (x0 : (⟨Cert.ReferenceIdeal.S50000x128, .f32⟩ : BufTy).Contents (Elt Ideal)) (x1 : (⟨Cert.ReferenceIdeal.S2x1600000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S256x128, .f32⟩ : BufTy).Contents (Elt Ideal)) (x9 : (⟨Cert.ReferenceIdeal.S256, .f32⟩ : BufTy).Contents (Elt Ideal)) (x10 : (⟨Cert.ReferenceIdeal.S256x128, .f32⟩ : BufTy).Contents (Elt Ideal)) :
    val_main_v73 (F := Ideal) x0 x1 x3 x4 x5 x6 x7 x8 x9 x10
      = Cert.Spec.convArr (n := 50000) (K := 128) (M := 256) (val_main_v60 (F := Ideal) x0 x1 x3 x4 x5 x6 x7) (val_main_v41 (F := Ideal) x0 x1 x3 x4 x5 x6 x7) x8 (Cert.Spec.at1 x9) x10 := by
  funext i
  obtain ⟨r, j, rfl⟩ : ∃ (r : Fin 50000) (j : Fin 256), i = ix2 r j := ⟨i 0, i 1, eq_ix2 i⟩
  rw [val_main_v73_apply, val_main_v72_apply, val_main_v71_apply, val_main_v69_apply, val_main_call2_v2_apply, val_main_call2_v1_apply,
    val_main_call2_cst_apply, val_main_v70_apply, val_main_cst_11_apply]
  have ek : ∀ k : Fin 256, idx_main_call2_v1 (idx_main_call2_v2 (idx_main_v72 (ix2 r j))) k = ix2 r k := fun k =>
    funext fun a => Fin.ext (by match a with | ⟨0, _⟩ => rfl | ⟨1, _⟩ => rfl)
  rw [convArr_apply, pre_at]
  refine congrArg (Ideal.div _) ?_
  show max _ _ = max _ _
  refine congrArg₂ max ?_ rfl
  refine (Ideal.hostUnary_sqrt_def _).trans (congrArg Ideal.sqrt ?_)
  show Ideal.ofBits .f32 0x00000000#32 + _ = _
  rw [Ideal.ofBits_zero_f32, zero_add]
  refine Finset.sum_congr rfl fun k _ => ?_
  rw [ek k, val_main_call2_v0_apply]
  show val_main_v68 (F := Ideal) x0 x1 x3 x4 x5 x6 x7 x8 x9 x10 (ix2 r k) * val_main_v68 (F := Ideal) x0 x1 x3 x4 x5 x6 x7 x8 x9 x10 (ix2 r k) = _
  rw [pre_at]

end Cert.ReferenceIdeal.StagesConv2

end
-- ==== Proof.RefHead.lean ====
/-
  The reference's head stage is the specification's head of the pooled array: the weight row is transposed to a
  column and contracted along its first axis, which at `(r, 0)` is the sum over `k` of the pooled row's entry times
  the weight row's entry; the bias is broadcast to every row; and `1 / (1 + exp (−z))`, with both ones the float
  `1.0`, is the logistic function by its definition.
-/
import proofs.«176643_j58703613002017_2_alg».proof.Proof.Gen.ReferenceIdeal.Read
import proofs.«176643_j58703613002017_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.StagesHead

open Cert.ReferenceIdeal Cert.ReferenceIdeal.Gen Cert.ReferenceIdeal.Read
open Idealize.ShloMosaic Idealize.ShloMosaic.ValueIdx

/-- The f32 word of `1.0` is the real number one. -/
theorem one_f32 : Ideal.ofBits .f32 0x3F800000#32 = 1 := by
  simp [Ideal.ofBits, Ideal.ieee, -EReal.coe_mul]; norm_num

theorem out_eq (x0 : (⟨Cert.ReferenceIdeal.S50000x128, .f32⟩ : BufTy).Contents (Elt Ideal)) (x1 : (⟨Cert.ReferenceIdeal.S2x1600000, .i32⟩ : BufTy).Contents (Elt Ideal)) (x2 : (⟨Cert.ReferenceIdeal.S50000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S256x128, .f32⟩ : BufTy).Contents (Elt Ideal)) (x9 : (⟨Cert.ReferenceIdeal.S256, .f32⟩ : BufTy).Contents (Elt Ideal)) (x10 : (⟨Cert.ReferenceIdeal.S256x128, .f32⟩ : BufTy).Contents (Elt Ideal)) (x11 : (⟨Cert.ReferenceIdeal.S1x256, .f32⟩ : BufTy).Contents (Elt Ideal)) (x12 : (⟨Cert.ReferenceIdeal.S1, .f32⟩ : BufTy).Contents (Elt Ideal)) :
    val_main_v96 (F := Ideal) x0 x1 x2 x3 x4 x5 x6 x7 x8 x9 x10 x11 x12
      = Cert.Spec.headArr (n := 512) (K := 256) (val_main_v85 (F := Ideal) x0 x1 x2 x3 x4 x5 x6 x7 x8 x9 x10) (fun k => x11 (ix2 (0 : Fin 1) k)) (x12 (ix1 (0 : Fin 1))) := by
  funext i
  obtain ⟨r, u, rfl⟩ : ∃ (r : Fin 512) (u : Fin 1), i = ix2 r u := ⟨i 0, i 1, eq_ix2 i⟩
  obtain rfl : u = 0 := Subsingleton.elim _ _
  rw [val_main_v96_apply, val_main_v95_apply, val_main_cst_17_apply, val_main_v94_apply, val_main_v93_apply, val_main_cst_16_apply,
    val_main_v92_apply, val_main_v91_apply, val_main_v90_apply, val_main_v87_apply, val_main_v89_apply, val_main_v88_apply]
  generalize val_main_v85 (F := Ideal) x0 x1 x2 x3 x4 x5 x6 x7 x8 x9 x10 = P
  have el : ∀ k : Fin 256, lidx_main_v87 (ix2 r (0 : Fin 1)) k = ix2 r k := fun k =>
    funext fun a => Fin.ext (by match a with | ⟨0, _⟩ => rfl | ⟨1, _⟩ => rfl)
  have er : ∀ k : Fin 256, idx_main_v86 (ridx_main_v87 (ix2 r (0 : Fin 1)) k) = ix2 (0 : Fin 1) k := fun k =>
    funext fun a => Fin.ext (by match a with | ⟨0, _⟩ => rfl | ⟨1, _⟩ => rfl)
  have eb : idx_main_v88 (idx_main_v89 (ix2 r (0 : Fin 1))) = ix1 (0 : Fin 1) :=
    funext fun a => Fin.ext (by match a with | ⟨0, _⟩ => rfl)
  show Ideal.div (Ideal.ofBits .f32 0x3F800000#32) (Ideal.ofBits .f32 0x3F800000#32
      + Ideal.exp (-((∑ k : Fin 256, P (lidx_main_v87 (ix2 r (0 : Fin 1)) k) * val_main_v86 (F := Ideal) x11 (ridx_main_v87 (ix2 r (0 : Fin 1)) k))
          + x12 (idx_main_v88 (idx_main_v89 (ix2 r (0 : Fin 1)))))))
    = Ideal.div 1 (1 + Ideal.exp (-((∑ k : Fin 256, P (ix2 r k) * x11 (ix2 (0 : Fin 1) k)) + x12 (ix1 (0 : Fin 1)))))
  rw [one_f32, eb]
  refine congrArg (fun s => Ideal.div 1 (1 + Ideal.exp (-(s + x12 (ix1 (0 : Fin 1)))))) (Finset.sum_congr rfl fun k _ => ?_)
  rw [val_main_v86_apply, el k, er k]

end Cert.ReferenceIdeal.StagesHead

end
-- ==== Proof.lean ====
/-
  The certificate of a two-layer graph network: an input projection, two graph-convolution steps (mean aggregation
  over the edges, two weight products, every row scaled to unit length; a rectifier after the first) and a pooled
  logistic head — four dense kernels among host stretches of gathers and scatter-adds — against the same network
  written in plain array operations.

  At the ideal instance both programs compute one function. Each dense kernel's output array is a specification
  function of the arrays it is given (a matrix product into a zero accumulator is the plain sum over the contracted
  axis; a change of float format is the identity; a lane sum kept as a column and broadcast back is the row's sum at
  every entry); the reference's corresponding stretch of operations is the same specification function (a transpose
  followed by a contraction of the first axis is the contraction of the weights' second axis; the logistic function is
  `1 / (1 + exp (−z))` by definition); and the host stretches in between are, operation for operation, the same in
  the two programs, so nothing about the gather or the scatter-adds is ever opened. No law of extended-real
  arithmetic is needed, and the precondition (finite inputs) is not used.

  The three frames are the generated ones (the reference's is its generated run with the result dropped); the ideal
  pass rewrote no operation, so `preserves` is `True`.
-/
import proofs.«176643_j58703613002017_2_alg».proof.Defs
import proofs.«176643_j58703613002017_2_alg».proof.Proof.Gen.Kernel
import proofs.«176643_j58703613002017_2_alg».proof.Proof.Gen.Kernel.Skeleton
import proofs.«176643_j58703613002017_2_alg».proof.Proof.Gen.Kernel.Launch
import proofs.«176643_j58703613002017_2_alg».proof.Proof.Gen.Kernel.Points
import proofs.«176643_j58703613002017_2_alg».proof.Proof.Gen.Kernel.Frame
import proofs.«176643_j58703613002017_2_alg».proof.Proof.Gen.KernelIdeal
import proofs.«176643_j58703613002017_2_alg».proof.Proof.Gen.KernelIdeal.Skeleton
import proofs.«176643_j58703613002017_2_alg».proof.Proof.Gen.KernelIdeal.Launch
import proofs.«176643_j58703613002017_2_alg».proof.Proof.Gen.KernelIdeal.Points
import proofs.«176643_j58703613002017_2_alg».proof.Proof.Gen.KernelIdeal.Frame
import proofs.«176643_j58703613002017_2_alg».proof.Proof.Gen.ReferenceIdeal
import proofs.«176643_j58703613002017_2_alg».proof.Proof.Gen.ReferenceIdeal.Run
import proofs.«176643_j58703613002017_2_alg».proof.Proof.Gen.ReferenceIdeal.Read
import proofs.«176643_j58703613002017_2_alg».proof.Proof.Gen.Pre_finite_inputs
import proofs.«176643_j58703613002017_2_alg».proof.Proof.Bridge
import proofs.«176643_j58703613002017_2_alg».proof.Proof.RefStages
import proofs.«176643_j58703613002017_2_alg».proof.Proof.RefConv2
import proofs.«176643_j58703613002017_2_alg».proof.Proof.RefHead
import Idealize.ShloMosaic.Adequacy
import Idealize.ShloMosaic.Init

set_option maxRecDepth 16384

noncomputable section

namespace Cert.Proof

open Idealize.ShloMosaic Idealize.ShloMosaic.TcCoe Idealize.SL.Sem

/-- The reference's four dense stages are the specification functions of their operands. -/
theorem stages : Cert.Bridge.StagesHold :=
  ⟨Cert.ReferenceIdeal.Stages.h0_eq, Cert.ReferenceIdeal.Stages.h1_eq, Cert.ReferenceIdeal.StagesConv2.h2_eq, Cert.ReferenceIdeal.StagesHead.out_eq⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories that agree on the arguments both programs end with the reference's result term of the kernel's
    arguments: the kernel by the fold read back (`Cert.Bridge.result`), the reference by its generated run, its term
    being that stage function of ITS arguments, which are the kernel's. -/
theorem algebraic : Cert.algebraic_KernelIdeal_ReferenceIdeal := by
  intro m ρ m' ρ' _ hagree
  refine ⟨_, (θ_run Cert.KernelIdeal.defs _ _).mono (fun r h c => ⟨(h c).1.trans (Cert.Bridge.result stages m ρ c), (h c).2⟩)
    (Cert.KernelIdeal.Named.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v96_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
